-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x3200000 : Shape := ⟨2, ![2, 3200000]⟩
abbrev S1x64 : Shape := ⟨2, ![1, 64]⟩
abbrev S64 : Shape := ⟨1, ![64]⟩
abbrev S64x64 : Shape := ⟨2, ![64, 64]⟩
abbrev S128x10 : Shape := ⟨2, ![128, 10]⟩
abbrev S10 : Shape := ⟨1, ![10]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S64 .f32) (main_arg7 : FVec F S128x10 .f32) (main_arg8 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x10 .f32 := Host.absf main_arg7
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000 .f32) (main_arg1 : IVec S2x3200000 32) (main_arg2 : IVec S100000 32) (main_arg3 : FVec F S1x64 .f32) (main_arg4 : FVec F S64 .f32) (main_arg5 : FVec F S64x64 .f32) (main_arg6 : FVec F S64 .f32) (main_arg7 : FVec F S128x10 .f32) (main_arg8 : FVec F S10 .f32) : IVec S_ 1 :=
  let main_v0 : FVec F S100000 .f32 := Host.absf main_arg0
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S1x64 .f32 := Host.absf main_arg3
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000 : Shape := ⟨1, ![100000]⟩
abbrev S2x3200000 : Shape := ⟨2, ![2, 3200000]⟩
abbrev S1x64 : Shape := ⟨2, ![1, 64]⟩
abbrev S64 : Shape := ⟨1, ![64]⟩
abbrev S64x64 : Shape := ⟨2, ![64, 64]⟩
abbrev S128x10 : Shape := ⟨2, ![128, 10]⟩
abbrev S10 : Shape := ⟨1, ![10]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S10000x1 : Shape := ⟨2, ![10000, 1]⟩
abbrev S10000x64 : Shape := ⟨2, ![10000, 64]⟩
abbrev S3300000x64 : Shape := ⟨2, ![3300000, 64]⟩
abbrev S100000x128 : Shape := ⟨2, ![100000, 128]⟩
abbrev S512 : Shape := ⟨1, ![512]⟩
abbrev S512x128 : Shape := ⟨2, ![512, 128]⟩
abbrev S512x1 : Shape := ⟨2, ![512, 1]⟩
abbrev S512x10 : Shape := ⟨2, ![512, 10]⟩
abbrev S1x10 : Shape := ⟨2, ![1, 10]⟩

abbrev nBuf : Space → Nat
  | .hbm => 109
  | .vmem => 14
  | .smem => 0
  | _ => 0

abbrev bufTy : (tb : Table) → Fin (tcTables nBuf tb) → BufTy
  | .hbm, ⟨0, _⟩ => ⟨S100000, .f32⟩
  | .hbm, ⟨1, _⟩ => ⟨S2x3200000, .i32⟩
  | .hbm, ⟨2, _⟩ => ⟨S100000, .i32⟩
  | .hbm, ⟨3, _⟩ => ⟨S1x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x10, .f32⟩
  | .hbm, ⟨8, _⟩ => ⟨S10, .f32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S3300000x1, .f32⟩
  | .hbm, ⟨46, _⟩ => ⟨S100000x1, .f32⟩
  | .hbm, ⟨47, _⟩ => ⟨S100000x64, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x64, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x64, .f32⟩
  | .hbm, ⟨79, _⟩ => ⟨S3300000x64, .f32⟩
  | .hbm, ⟨80, _⟩ => ⟨S3300000x64, .f32⟩
  | .hbm, ⟨81, _⟩ => ⟨S_, .f32⟩
  | .hbm, ⟨82, _⟩ => ⟨S100000x64, .f32⟩
  | .hbm, ⟨83, _⟩ => ⟨S3300000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000x64, .f32⟩
  | .hbm, ⟨90, _⟩ => ⟨S100000x64, .f32⟩
  | .hbm, ⟨91, _⟩ => ⟨S100000x128, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S512, .f32⟩
  | .hbm, ⟨96, _⟩ => ⟨S100000x1, .i32⟩
  | .hbm, ⟨97, _⟩ => ⟨S512, .f32⟩
  | .hbm, ⟨98, _⟩ => ⟨S_, .f32⟩
  | .hbm, ⟨99, _⟩ => ⟨S512x128, .f32⟩
  | .hbm, ⟨100, _⟩ => ⟨S100000x1, .i32⟩
  | .hbm, ⟨101, _⟩ => ⟨S512x128, .f32⟩
  | .hbm, ⟨102, _⟩ => ⟨S_, .f32⟩
  | .hbm, ⟨103, _⟩ => ⟨S512, .f32⟩
  | .hbm, ⟨104, _⟩ => ⟨S512, .f32⟩
  | .hbm, ⟨105, _⟩ => ⟨S512x1, .f32⟩
  | .hbm, ⟨106, _⟩ => ⟨S512x128, .f32⟩
  | .hbm, ⟨107, _⟩ => ⟨S512x128, .f32⟩
  | .hbm, ⟨108, _⟩ => ⟨S512x10, .f32⟩
  | .local _ .vmem, ⟨0, _⟩ => ⟨S10000x1, .f32⟩
  | .local _ .vmem, ⟨1, _⟩ => ⟨S10000x1, .f32⟩
  | .local _ .vmem, ⟨2, _⟩ => ⟨S1x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S512x128, .f32⟩
  | .local _ .vmem, ⟨11, _⟩ => ⟨S128x10, .f32⟩
  | .local _ .vmem, ⟨12, _⟩ => ⟨S10, .f32⟩
  | .local _ .vmem, ⟨13, _⟩ => ⟨S512x10, .f32⟩
  | _, _ => ⟨S100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call0_cst : Ref sig .tc := ⟨.hbm, 66, rfl⟩
abbrev main_call0_v0 : Ref sig .tc := ⟨.hbm, 67, rfl⟩
abbrev main_v47 : Ref sig .tc := ⟨.hbm, 68, rfl⟩
abbrev main_v48 : Ref sig .tc := ⟨.hbm, 69, rfl⟩
abbrev main_c_8 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  concatenates_S100000x64_S100000x64_S100000x128_d1 : Shape.Concatenates [S100000x64, S100000x64] S100000x128 1
  bcast_S_S512 : S_.BroadcastsInDim S512 (![] : Fin 0 → Fin S512.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x1_S1x64_S10000x64_1_0_0_1_n_n_wf : DotDims.WF S10000x1 S1x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S512x128.size a
  hwx2_0 : ∀ i : grid2.Coords, EltTy.bits .f32 = 32 ∨ (Rect.block (s := S512x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x10.size a ≤ S128x10.size a
  hwx2_1 : ∀ i : grid2.Coords, EltTy.bits .f32 = 32 ∨ (Rect.block (s := S128x10) S128x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10.size a ≤ S10.size a
  hwx2_2 : ∀ i : grid2.Coords, EltTy.bits .f32 = 32 ∨ (Rect.block (s := S10) S10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x10.size a ≤ S512x10.size a
  hwx2_3 : ∀ i : grid2.Coords, EltTy.bits .f32 = 32 ∨ (Rect.block (s := S512x10) S512x10.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x1_S1x64_S10000x64_1_0_0_1_n_n : DotDims S10000x1 S1x64 S10000x64 where
  lhsContracting := [1]
  rhsContracting := [0]
  lhsNonContracting := [0]
  rhsNonContracting := [1]
  lhsBatch := []
  rhsBatch := []
  wf := dot_S10000x1_S1x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_v30) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v77) S512x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v78) S512x10.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000 : Shape := ⟨1, ![100000]⟩
abbrev S2x3200000 : Shape := ⟨2, ![2, 3200000]⟩
abbrev S1x64 : Shape := ⟨2, ![1, 64]⟩
abbrev S64 : Shape := ⟨1, ![64]⟩
abbrev S64x64 : Shape := ⟨2, ![64, 64]⟩
abbrev S128x10 : Shape := ⟨2, ![128, 10]⟩
abbrev S10 : Shape := ⟨1, ![10]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S3300000x64 : Shape := ⟨2, ![3300000, 64]⟩
abbrev S100000x128 : Shape := ⟨2, ![100000, 128]⟩
abbrev S512 : Shape := ⟨1, ![512]⟩
abbrev S512x128 : Shape := ⟨2, ![512, 128]⟩
abbrev S512x1 : Shape := ⟨2, ![512, 1]⟩
abbrev S512x10 : Shape := ⟨2, ![512, 10]⟩
abbrev S1x10 : Shape := ⟨2, ![1, 10]⟩

abbrev nBuf : Space → Nat
  | .hbm => 112
  | .vmem => 0
  | .smem => 0
  | _ => 0

abbrev bufTy : (tb : Table) → Fin (tcTables nBuf tb) → BufTy
  | .hbm, ⟨0, _⟩ => ⟨S100000, .f32⟩
  | .hbm, ⟨1, _⟩ => ⟨S2x3200000, .i32⟩
  | .hbm, ⟨2, _⟩ => ⟨S100000, .i32⟩
  | .hbm, ⟨3, _⟩ => ⟨S1x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x10, .f32⟩
  | .hbm, ⟨8, _⟩ => ⟨S10, .f32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S3300000x1, .f32⟩
  | .hbm, ⟨46, _⟩ => ⟨S100000x1, .f32⟩
  | .hbm, ⟨47, _⟩ => ⟨S100000x64, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x64, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x64, .f32⟩
  | .hbm, ⟨79, _⟩ => ⟨S3300000x64, .f32⟩
  | .hbm, ⟨80, _⟩ => ⟨S3300000x64, .f32⟩
  | .hbm, ⟨81, _⟩ => ⟨S_, .f32⟩
  | .hbm, ⟨82, _⟩ => ⟨S100000x64, .f32⟩
  | .hbm, ⟨83, _⟩ => ⟨S3300000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000x64, .f32⟩
  | .hbm, ⟨90, _⟩ => ⟨S100000x64, .f32⟩
  | .hbm, ⟨91, _⟩ => ⟨S100000x128, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S512, .f32⟩
  | .hbm, ⟨96, _⟩ => ⟨S100000x1, .i32⟩
  | .hbm, ⟨97, _⟩ => ⟨S512, .f32⟩
  | .hbm, ⟨98, _⟩ => ⟨S_, .f32⟩
  | .hbm, ⟨99, _⟩ => ⟨S512x128, .f32⟩
  | .hbm, ⟨100, _⟩ => ⟨S100000x1, .i32⟩
  | .hbm, ⟨101, _⟩ => ⟨S512x128, .f32⟩
  | .hbm, ⟨102, _⟩ => ⟨S_, .f32⟩
  | .hbm, ⟨103, _⟩ => ⟨S512, .f32⟩
  | .hbm, ⟨104, _⟩ => ⟨S512, .f32⟩
  | .hbm, ⟨105, _⟩ => ⟨S512x1, .f32⟩
  | .hbm, ⟨106, _⟩ => ⟨S512x128, .f32⟩
  | .hbm, ⟨107, _⟩ => ⟨S512x128, .f32⟩
  | .hbm, ⟨108, _⟩ => ⟨S512x10, .f32⟩
  | .hbm, ⟨109, _⟩ => ⟨S1x10, .f32⟩
  | .hbm, ⟨110, _⟩ => ⟨S512x10, .f32⟩
  | .hbm, ⟨111, _⟩ => ⟨S512x10, .f32⟩
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call0_cst : Ref sig .tc := ⟨.hbm, 66, rfl⟩
abbrev main_call0_v0 : Ref sig .tc := ⟨.hbm, 67, rfl⟩
abbrev main_v47 : Ref sig .tc := ⟨.hbm, 68, rfl⟩
abbrev main_v48 : Ref sig .tc := ⟨.hbm, 69, rfl⟩
abbrev main_c_8 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  bcast_S_S512 : S_.BroadcastsInDim S512 (![] : Fin 0 → Fin S512.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x1_S1x64_S100000x64_1_0_0_1_n_n_wf : DotDims.WF S100000x1 S1x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1
  dot_S512x128_S128x10_S512x10_1_0_0_1_n_n_wf : DotDims.WF S512x128 S128x10 S512x10 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.KernelRun.lean ====
/-
  The idealized kernel's run with its result NAMED.  @main is nine segments: six stretches of host operations and three
  pallas_calls.  The buffer contents at the last boundary are the fold `Gen.W9`: every stretch applied in turn, and each
  pallas_call's arrays replaced by what its write-backs leave.  The run below is the frame's run with one more conjunct:
  the result buffer `main_v78` ends at `W9` read at that buffer, beside the nine argument arrays ending as launched.
-/
import proofs.«164311_j45835890983033_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and every argument array as launched. -/
theorem run_named : θ_run defs (onTc (τ := τ) (main (F := F))) ⟨m, fun _ => 0, ρ⟩ (fun r => ∀ c : Dev nD,
      r.2.mem ((c.tc : Thread nD τ).loc main_v78) = W9 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v78 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Named

end
-- ==== Proof.HostSteps.lean ====
/-
  The host operations between the pallas_calls, read from ANY buffer contents `W` a segment is entered with.  The
  idealized kernel's program and the idealized reference apply the same host operations to the same buffers; the only
  difference is that the reference computes the three matrix products by `dot_general`.  So each stretch is read here as:
  if the buffers it reads hold the reference's stages (the generated read-back's `val_main_vN`, functions of the argument
  arrays x0 … x8) then so do the buffers it writes.  No stage is ever opened: each step is the stretch's operations read
  off one by one, and the result is the reference's stage by unfolding its definition.
-/
import proofs.«164311_j45835890983033_1_alg».proof.Proof.Gen.KernelIdeal.Launch
import proofs.«164311_j45835890983033_1_alg».proof.Proof.Gen.ReferenceIdeal.Read
import Idealize.ShloMosaic.Lib.StableHlo.Run

set_option maxRecDepth 16384

noncomputable section

namespace Cert.Bridge

open Idealize.ShloMosaic Idealize.ShloMosaic.TcCoe Idealize.SL.Sem Idealize.ShloMosaic.StableHlo

/-- The first stretch of host operations, read at the buffers later segments use: the source and destination index vectors with the self-loops appended, the symmetric normalisation as a column, and the node feature as a column; the argument arrays later segments read are untouched. -/
theorem stretch0 (W : Valuation Cert.KernelIdeal.τ Cert.KernelIdeal.sig (Elt Ideal))
    (x0 : (⟨Cert.ReferenceIdeal.S100000, .f32⟩ : BufTy).Contents (Elt Ideal))
    (x1 : (⟨Cert.ReferenceIdeal.S2x3200000, .i32⟩ : BufTy).Contents (Elt Ideal))
    (x2 : (⟨Cert.ReferenceIdeal.S100000, .i32⟩ : BufTy).Contents (Elt Ideal))
    (x3 : (⟨Cert.ReferenceIdeal.S1x64, .f32⟩ : BufTy).Contents (Elt Ideal))
    (x4 : (⟨Cert.ReferenceIdeal.S64, .f32⟩ : BufTy).Contents (Elt Ideal))
    (x5 : (⟨Cert.ReferenceIdeal.S64x64, .f32⟩ : BufTy).Contents (Elt Ideal))
    (x6 : (⟨Cert.ReferenceIdeal.S64, .f32⟩ : BufTy).Contents (Elt Ideal))
    (x7 : (⟨Cert.ReferenceIdeal.S128x10, .f32⟩ : BufTy).Contents (Elt Ideal))
    (x8 : (⟨Cert.ReferenceIdeal.S10, .f32⟩ : BufTy).Contents (Elt Ideal))
    (h_main_arg0 : W (Proc.devRef .tc Cert.KernelIdeal.main_arg0) = x0)
    (h_main_arg1 : W (Proc.devRef .tc Cert.KernelIdeal.main_arg1) = x1)
    (h_main_arg2 : W (Proc.devRef .tc Cert.KernelIdeal.main_arg2) = x2)
    (h_main_arg3 : W (Proc.devRef .tc Cert.KernelIdeal.main_arg3) = x3)
    (h_main_arg4 : W (Proc.devRef .tc Cert.KernelIdeal.main_arg4) = x4)
    (h_main_arg5 : W (Proc.devRef .tc Cert.KernelIdeal.main_arg5) = x5)
    (h_main_arg6 : W (Proc.devRef .tc Cert.KernelIdeal.main_arg6) = x6)
    (h_main_arg7 : W (Proc.devRef .tc Cert.KernelIdeal.main_arg7) = x7)
    (h_main_arg8 : W (Proc.devRef .tc Cert.KernelIdeal.main_arg8) = x8) :
    StableHlo.after Cert.KernelIdeal.Gen.hostOps0 W (Proc.devRef .tc Cert.KernelIdeal.main_v3) = Cert.ReferenceIdeal.Read.val_main_v3 x1
      ∧ StableHlo.after Cert.KernelIdeal.Gen.hostOps0 W (Proc.devRef .tc Cert.KernelIdeal.main_v6) = Cert.ReferenceIdeal.Read.val_main_v6 x1
      ∧ StableHlo.after Cert.KernelIdeal.Gen.hostOps0 W (Proc.devRef .tc Cert.KernelIdeal.main_v29) = Cert.ReferenceIdeal.Read.val_main_v29 x1
      ∧ StableHlo.after Cert.KernelIdeal.Gen.hostOps0 W (Proc.devRef .tc Cert.KernelIdeal.main_v30) = Cert.ReferenceIdeal.Read.val_main_v30 x0
      ∧ StableHlo.after Cert.KernelIdeal.Gen.hostOps0 W (Proc.devRef .tc Cert.KernelIdeal.main_arg2) = x2
      ∧ StableHlo.after Cert.KernelIdeal.Gen.hostOps0 W (Proc.devRef .tc Cert.KernelIdeal.main_arg3) = x3
      ∧ StableHlo.after Cert.KernelIdeal.Gen.hostOps0 W (Proc.devRef .tc Cert.KernelIdeal.main_arg4) = x4
      ∧ StableHlo.after Cert.KernelIdeal.Gen.hostOps0 W (Proc.devRef .tc Cert.KernelIdeal.main_arg5) = x5
      ∧ StableHlo.after Cert.KernelIdeal.Gen.hostOps0 W (Proc.devRef .tc Cert.KernelIdeal.main_arg6) = x6
      ∧ StableHlo.after Cert.KernelIdeal.Gen.hostOps0 W (Proc.devRef .tc Cert.KernelIdeal.main_arg7) = x7
      ∧ StableHlo.after Cert.KernelIdeal.Gen.hostOps0 W (Proc.devRef .tc Cert.KernelIdeal.main_arg8) = x8 := by
  subst h_main_arg0 h_main_arg1
  refine ⟨?_, ?_, ?_, ?_, ?_, ?_, ?_, ?_, ?_, ?_, ?_⟩
  · dsimp only [Cert.KernelIdeal.Gen.hostOps0]; after_results_simp; rfl
  · dsimp only [Cert.KernelIdeal.Gen.hostOps0]; after_results_simp; rfl
  · dsimp only [Cert.KernelIdeal.Gen.hostOps0]; after_results_simp; rfl
  · dsimp only [Cert.KernelIdeal.Gen.hostOps0]; after_results_simp; rfl
  · dsimp only [Cert.KernelIdeal.Gen.hostOps0]; after_results_simp; exact h_main_arg2
  · dsimp only [Cert.KernelIdeal.Gen.hostOps0]; after_results_simp; exact h_main_arg3
  · dsimp only [Cert.KernelIdeal.Gen.hostOps0]; after_results_simp; exact h_main_arg4
  · dsimp only [Cert.KernelIdeal.Gen.hostOps0]; after_results_simp; exact h_main_arg5
  · dsimp only [Cert.KernelIdeal.Gen.hostOps0]; after_results_simp; exact h_main_arg6
  · dsimp only [Cert.KernelIdeal.Gen.hostOps0]; after_results_simp; exact h_main_arg7
  · dsimp only [Cert.KernelIdeal.Gen.hostOps0]; after_results_simp; exact h_main_arg8

/-- The stretch after the first matmul: messages gathered along the edges, scaled by the normalisation, summed into their destination rows, plus the bias. -/
theorem stretch1 (W : Valuation Cert.KernelIdeal.τ Cert.KernelIdeal.sig (Elt Ideal))
    (x0 : (⟨Cert.ReferenceIdeal.S100000, .f32⟩ : BufTy).Contents (Elt Ideal))
    (x1 : (⟨Cert.ReferenceIdeal.S2x3200000, .i32⟩ : BufTy).Contents (Elt Ideal))
    (x2 : (⟨Cert.ReferenceIdeal.S100000, .i32⟩ : BufTy).Contents (Elt Ideal))
    (x3 : (⟨Cert.ReferenceIdeal.S1x64, .f32⟩ : BufTy).Contents (Elt Ideal))
    (x4 : (⟨Cert.ReferenceIdeal.S64, .f32⟩ : BufTy).Contents (Elt Ideal))
    (x5 : (⟨Cert.ReferenceIdeal.S64x64, .f32⟩ : BufTy).Contents (Elt Ideal))
    (x6 : (⟨Cert.ReferenceIdeal.S64, .f32⟩ : BufTy).Contents (Elt Ideal))
    (x7 : (⟨Cert.ReferenceIdeal.S128x10, .f32⟩ : BufTy).Contents (Elt Ideal))
    (x8 : (⟨Cert.ReferenceIdeal.S10, .f32⟩ : BufTy).Contents (Elt Ideal))
    (h_main_v31 : W (Proc.devRef .tc Cert.KernelIdeal.main_v31) = Cert.ReferenceIdeal.Read.val_main_v31 x0 x3)
    (h_main_v3 : W (Proc.devRef .tc Cert.KernelIdeal.main_v3) = Cert.ReferenceIdeal.Read.val_main_v3 x1)
    (h_main_v6 : W (Proc.devRef .tc Cert.KernelIdeal.main_v6) = Cert.ReferenceIdeal.Read.val_main_v6 x1)
    (h_main_v29 : W (Proc.devRef .tc Cert.KernelIdeal.main_v29) = Cert.ReferenceIdeal.Read.val_main_v29 x1)
    (h_main_arg2 : W (Proc.devRef .tc Cert.KernelIdeal.main_arg2) = x2)
    (h_main_arg4 : W (Proc.devRef .tc Cert.KernelIdeal.main_arg4) = x4)
    (h_main_arg5 : W (Proc.devRef .tc Cert.KernelIdeal.main_arg5) = x5)
    (h_main_arg6 : W (Proc.devRef .tc Cert.KernelIdeal.main_arg6) = x6)
    (h_main_arg7 : W (Proc.devRef .tc Cert.KernelIdeal.main_arg7) = x7)
    (h_main_arg8 : W (Proc.devRef .tc Cert.KernelIdeal.main_arg8) = x8) :
    StableHlo.after Cert.KernelIdeal.Gen.hostOps1 W (Proc.devRef .tc Cert.KernelIdeal.main_v46) = Cert.ReferenceIdeal.Read.val_main_v46 x0 x1 x3 x4
      ∧ StableHlo.after Cert.KernelIdeal.Gen.hostOps1 W (Proc.devRef .tc Cert.KernelIdeal.main_v3) = Cert.ReferenceIdeal.Read.val_main_v3 x1
      ∧ StableHlo.after Cert.KernelIdeal.Gen.hostOps1 W (Proc.devRef .tc Cert.KernelIdeal.main_v6) = Cert.ReferenceIdeal.Read.val_main_v6 x1
      ∧ StableHlo.after Cert.KernelIdeal.Gen.hostOps1 W (Proc.devRef .tc Cert.KernelIdeal.main_v29) = Cert.ReferenceIdeal.Read.val_main_v29 x1
      ∧ StableHlo.after Cert.KernelIdeal.Gen.hostOps1 W (Proc.devRef .tc Cert.KernelIdeal.main_arg2) = x2
      ∧ StableHlo.after Cert.KernelIdeal.Gen.hostOps1 W (Proc.devRef .tc Cert.KernelIdeal.main_arg5) = x5
      ∧ StableHlo.after Cert.KernelIdeal.Gen.hostOps1 W (Proc.devRef .tc Cert.KernelIdeal.main_arg6) = x6
      ∧ StableHlo.after Cert.KernelIdeal.Gen.hostOps1 W (Proc.devRef .tc Cert.KernelIdeal.main_arg7) = x7
      ∧ StableHlo.after Cert.KernelIdeal.Gen.hostOps1 W (Proc.devRef .tc Cert.KernelIdeal.main_arg8) = x8 := by
  refine ⟨?_, ?_, ?_, ?_, ?_, ?_, ?_, ?_, ?_⟩
  · dsimp only [Cert.KernelIdeal.Gen.hostOps1]; after_results_simp
    rw [h_main_v31, h_main_v3, h_main_v6, h_main_v29, h_main_arg4]
    rfl
  · dsimp only [Cert.KernelIdeal.Gen.hostOps1]; after_results_simp; exact h_main_v3
  · dsimp only [Cert.KernelIdeal.Gen.hostOps1]; after_results_simp; exact h_main_v6
  · dsimp only [Cert.KernelIdeal.Gen.hostOps1]; after_results_simp; exact h_main_v29
  · dsimp only [Cert.KernelIdeal.Gen.hostOps1]; after_results_simp; exact h_main_arg2
  · dsimp only [Cert.KernelIdeal.Gen.hostOps1]; after_results_simp; exact h_main_arg5
  · dsimp only [Cert.KernelIdeal.Gen.hostOps1]; after_results_simp; exact h_main_arg6
  · dsimp only [Cert.KernelIdeal.Gen.hostOps1]; after_results_simp; exact h_main_arg7
  · dsimp only [Cert.KernelIdeal.Gen.hostOps1]; after_results_simp; exact h_main_arg8

/-- The first layer's rectifier: the maximum with zero. -/
theorem relu1 (W : Valuation Cert.KernelIdeal.τ Cert.KernelIdeal.sig (Elt Ideal))
    (x0 : (⟨Cert.ReferenceIdeal.S100000, .f32⟩ : BufTy).Contents (Elt Ideal))
    (x1 : (⟨Cert.ReferenceIdeal.S2x3200000, .i32⟩ : BufTy).Contents (Elt Ideal))
    (x2 : (⟨Cert.ReferenceIdeal.S100000, .i32⟩ : BufTy).Contents (Elt Ideal))
    (x3 : (⟨Cert.ReferenceIdeal.S1x64, .f32⟩ : BufTy).Contents (Elt Ideal))
    (x4 : (⟨Cert.ReferenceIdeal.S64, .f32⟩ : BufTy).Contents (Elt Ideal))
    (x5 : (⟨Cert.ReferenceIdeal.S64x64, .f32⟩ : BufTy).Contents (Elt Ideal))
    (x6 : (⟨Cert.ReferenceIdeal.S64, .f32⟩ : BufTy).Contents (Elt Ideal))
    (x7 : (⟨Cert.ReferenceIdeal.S128x10, .f32⟩ : BufTy).Contents (Elt Ideal))
    (x8 : (⟨Cert.ReferenceIdeal.S10, .f32⟩ : BufTy).Contents (Elt Ideal))
    (h_main_v46 : W (Proc.devRef .tc Cert.KernelIdeal.main_v46) = Cert.ReferenceIdeal.Read.val_main_v46 x0 x1 x3 x4)
    (h_main_v3 : W (Proc.devRef .tc Cert.KernelIdeal.main_v3) = Cert.ReferenceIdeal.Read.val_main_v3 x1)
    (h_main_v6 : W (Proc.devRef .tc Cert.KernelIdeal.main_v6) = Cert.ReferenceIdeal.Read.val_main_v6 x1)
    (h_main_v29 : W (Proc.devRef .tc Cert.KernelIdeal.main_v29) = Cert.ReferenceIdeal.Read.val_main_v29 x1)
    (h_main_arg2 : W (Proc.devRef .tc Cert.KernelIdeal.main_arg2) = x2)
    (h_main_arg5 : W (Proc.devRef .tc Cert.KernelIdeal.main_arg5) = x5)
    (h_main_arg6 : W (Proc.devRef .tc Cert.KernelIdeal.main_arg6) = x6)
    (h_main_arg7 : W (Proc.devRef .tc Cert.KernelIdeal.main_arg7) = x7)
    (h_main_arg8 : W (Proc.devRef .tc Cert.KernelIdeal.main_arg8) = x8) :
    StableHlo.after Cert.KernelIdeal.Gen.hostOps1_1 W (Proc.devRef .tc Cert.KernelIdeal.main_v47) = Cert.ReferenceIdeal.Read.val_main_v47 x0 x1 x3 x4
      ∧ StableHlo.after Cert.KernelIdeal.Gen.hostOps1_1 W (Proc.devRef .tc Cert.KernelIdeal.main_v3) = Cert.ReferenceIdeal.Read.val_main_v3 x1
      ∧ StableHlo.after Cert.KernelIdeal.Gen.hostOps1_1 W (Proc.devRef .tc Cert.KernelIdeal.main_v6) = Cert.ReferenceIdeal.Read.val_main_v6 x1
      ∧ StableHlo.after Cert.KernelIdeal.Gen.hostOps1_1 W (Proc.devRef .tc Cert.KernelIdeal.main_v29) = Cert.ReferenceIdeal.Read.val_main_v29 x1
      ∧ StableHlo.after Cert.KernelIdeal.Gen.hostOps1_1 W (Proc.devRef .tc Cert.KernelIdeal.main_arg2) = x2
      ∧ StableHlo.after Cert.KernelIdeal.Gen.hostOps1_1 W (Proc.devRef .tc Cert.KernelIdeal.main_arg5) = x5
      ∧ StableHlo.after Cert.KernelIdeal.Gen.hostOps1_1 W (Proc.devRef .tc Cert.KernelIdeal.main_arg6) = x6
      ∧ StableHlo.after Cert.KernelIdeal.Gen.hostOps1_1 W (Proc.devRef .tc Cert.KernelIdeal.main_arg7) = x7
      ∧ StableHlo.after Cert.KernelIdeal.Gen.hostOps1_1 W (Proc.devRef .tc Cert.KernelIdeal.main_arg8) = x8 := by
  refine ⟨?_, ?_, ?_, ?_, ?_, ?_, ?_, ?_, ?_⟩
  · dsimp only [Cert.KernelIdeal.Gen.hostOps1_1]; after_results_simp
    simp only [TRef.toBuf, TRef.ofBuf, cast_eq, id]
    rw [h_main_v46]
    rfl
  · dsimp only [Cert.KernelIdeal.Gen.hostOps1_1]; after_results_simp; exact h_main_v3
  · dsimp only [Cert.KernelIdeal.Gen.hostOps1_1]; after_results_simp; exact h_main_v6
  · dsimp only [Cert.KernelIdeal.Gen.hostOps1_1]; after_results_simp; exact h_main_v29
  · dsimp only [Cert.KernelIdeal.Gen.hostOps1_1]; after_results_simp; exact h_main_arg2
  · dsimp only [Cert.KernelIdeal.Gen.hostOps1_1]; after_results_simp; exact h_main_arg5
  · dsimp only [Cert.KernelIdeal.Gen.hostOps1_1]; after_results_simp; exact h_main_arg6
  · dsimp only [Cert.KernelIdeal.Gen.hostOps1_1]; after_results_simp; exact h_main_arg7
  · dsimp only [Cert.KernelIdeal.Gen.hostOps1_1]; after_results_simp; exact h_main_arg8

/-- The stretch after the second matmul: the same gather, scale, scatter-add and bias as the first layer's. -/
theorem stretch2 (W : Valuation Cert.KernelIdeal.τ Cert.KernelIdeal.sig (Elt Ideal))
    (x0 : (⟨Cert.ReferenceIdeal.S100000, .f32⟩ : BufTy).Contents (Elt Ideal))
    (x1 : (⟨Cert.ReferenceIdeal.S2x3200000, .i32⟩ : BufTy).Contents (Elt Ideal))
    (x2 : (⟨Cert.ReferenceIdeal.S100000, .i32⟩ : BufTy).Contents (Elt Ideal))
    (x3 : (⟨Cert.ReferenceIdeal.S1x64, .f32⟩ : BufTy).Contents (Elt Ideal))
    (x4 : (⟨Cert.ReferenceIdeal.S64, .f32⟩ : BufTy).Contents (Elt Ideal))
    (x5 : (⟨Cert.ReferenceIdeal.S64x64, .f32⟩ : BufTy).Contents (Elt Ideal))
    (x6 : (⟨Cert.ReferenceIdeal.S64, .f32⟩ : BufTy).Contents (Elt Ideal))
    (x7 : (⟨Cert.ReferenceIdeal.S128x10, .f32⟩ : BufTy).Contents (Elt Ideal))
    (x8 : (⟨Cert.ReferenceIdeal.S10, .f32⟩ : BufTy).Contents (Elt Ideal))
    (h_main_v48 : W (Proc.devRef .tc Cert.KernelIdeal.main_v48) = Cert.ReferenceIdeal.Read.val_main_v48 x0 x1 x3 x4 x5)
    (h_main_v47 : W (Proc.devRef .tc Cert.KernelIdeal.main_v47) = Cert.ReferenceIdeal.Read.val_main_v47 x0 x1 x3 x4)
    (h_main_v3 : W (Proc.devRef .tc Cert.KernelIdeal.main_v3) = Cert.ReferenceIdeal.Read.val_main_v3 x1)
    (h_main_v6 : W (Proc.devRef .tc Cert.KernelIdeal.main_v6) = Cert.ReferenceIdeal.Read.val_main_v6 x1)
    (h_main_v29 : W (Proc.devRef .tc Cert.KernelIdeal.main_v29) = Cert.ReferenceIdeal.Read.val_main_v29 x1)
    (h_main_arg2 : W (Proc.devRef .tc Cert.KernelIdeal.main_arg2) = x2)
    (h_main_arg6 : W (Proc.devRef .tc Cert.KernelIdeal.main_arg6) = x6)
    (h_main_arg7 : W (Proc.devRef .tc Cert.KernelIdeal.main_arg7) = x7)
    (h_main_arg8 : W (Proc.devRef .tc Cert.KernelIdeal.main_arg8) = x8) :
    StableHlo.after Cert.KernelIdeal.Gen.hostOps2 W (Proc.devRef .tc Cert.KernelIdeal.main_v63) = Cert.ReferenceIdeal.Read.val_main_v63 x0 x1 x3 x4 x5 x6
      ∧ StableHlo.after Cert.KernelIdeal.Gen.hostOps2 W (Proc.devRef .tc Cert.KernelIdeal.main_v47) = Cert.ReferenceIdeal.Read.val_main_v47 x0 x1 x3 x4
      ∧ StableHlo.after Cert.KernelIdeal.Gen.hostOps2 W (Proc.devRef .tc Cert.KernelIdeal.main_arg2) = x2
      ∧ StableHlo.after Cert.KernelIdeal.Gen.hostOps2 W (Proc.devRef .tc Cert.KernelIdeal.main_arg7) = x7
      ∧ StableHlo.after Cert.KernelIdeal.Gen.hostOps2 W (Proc.devRef .tc Cert.KernelIdeal.main_arg8) = x8 := by
  refine ⟨?_, ?_, ?_, ?_, ?_⟩
  · dsimp only [Cert.KernelIdeal.Gen.hostOps2]; after_results_simp
    rw [h_main_v48, h_main_v3, h_main_v6, h_main_v29, h_main_arg6]
    rfl
  · dsimp only [Cert.KernelIdeal.Gen.hostOps2]; after_results_simp; exact h_main_v47
  · dsimp only [Cert.KernelIdeal.Gen.hostOps2]; after_results_simp; exact h_main_arg2
  · dsimp only [Cert.KernelIdeal.Gen.hostOps2]; after_results_simp; exact h_main_arg7
  · dsimp only [Cert.KernelIdeal.Gen.hostOps2]; after_results_simp; exact h_main_arg8

/-- The second layer's rectifier. -/
theorem relu2 (W : Valuation Cert.KernelIdeal.τ Cert.KernelIdeal.sig (Elt Ideal))
    (x0 : (⟨Cert.ReferenceIdeal.S100000, .f32⟩ : BufTy).Contents (Elt Ideal))
    (x1 : (⟨Cert.ReferenceIdeal.S2x3200000, .i32⟩ : BufTy).Contents (Elt Ideal))
    (x2 : (⟨Cert.ReferenceIdeal.S100000, .i32⟩ : BufTy).Contents (Elt Ideal))
    (x3 : (⟨Cert.ReferenceIdeal.S1x64, .f32⟩ : BufTy).Contents (Elt Ideal))
    (x4 : (⟨Cert.ReferenceIdeal.S64, .f32⟩ : BufTy).Contents (Elt Ideal))
    (x5 : (⟨Cert.ReferenceIdeal.S64x64, .f32⟩ : BufTy).Contents (Elt Ideal))
    (x6 : (⟨Cert.ReferenceIdeal.S64, .f32⟩ : BufTy).Contents (Elt Ideal))
    (x7 : (⟨Cert.ReferenceIdeal.S128x10, .f32⟩ : BufTy).Contents (Elt Ideal))
    (x8 : (⟨Cert.ReferenceIdeal.S10, .f32⟩ : BufTy).Contents (Elt Ideal))
    (h_main_v63 : W (Proc.devRef .tc Cert.KernelIdeal.main_v63) = Cert.ReferenceIdeal.Read.val_main_v63 x0 x1 x3 x4 x5 x6)
    (h_main_v47 : W (Proc.devRef .tc Cert.KernelIdeal.main_v47) = Cert.ReferenceIdeal.Read.val_main_v47 x0 x1 x3 x4)
    (h_main_arg2 : W (Proc.devRef .tc Cert.KernelIdeal.main_arg2) = x2)
    (h_main_arg7 : W (Proc.devRef .tc Cert.KernelIdeal.main_arg7) = x7)
    (h_main_arg8 : W (Proc.devRef .tc Cert.KernelIdeal.main_arg8) = x8) :
    StableHlo.after Cert.KernelIdeal.Gen.hostOps2_1 W (Proc.devRef .tc Cert.KernelIdeal.main_v64) = Cert.ReferenceIdeal.Read.val_main_v64 x0 x1 x3 x4 x5 x6
      ∧ StableHlo.after Cert.KernelIdeal.Gen.hostOps2_1 W (Proc.devRef .tc Cert.KernelIdeal.main_v47) = Cert.ReferenceIdeal.Read.val_main_v47 x0 x1 x3 x4
      ∧ StableHlo.after Cert.KernelIdeal.Gen.hostOps2_1 W (Proc.devRef .tc Cert.KernelIdeal.main_arg2) = x2
      ∧ StableHlo.after Cert.KernelIdeal.Gen.hostOps2_1 W (Proc.devRef .tc Cert.KernelIdeal.main_arg7) = x7
      ∧ StableHlo.after Cert.KernelIdeal.Gen.hostOps2_1 W (Proc.devRef .tc Cert.KernelIdeal.main_arg8) = x8 := by
  refine ⟨?_, ?_, ?_, ?_, ?_⟩
  · dsimp only [Cert.KernelIdeal.Gen.hostOps2_1]; after_results_simp
    simp only [TRef.toBuf, TRef.ofBuf, cast_eq, id]
    rw [h_main_v63]
    rfl
  · dsimp only [Cert.KernelIdeal.Gen.hostOps2_1]; after_results_simp; exact h_main_v47
  · dsimp only [Cert.KernelIdeal.Gen.hostOps2_1]; after_results_simp; exact h_main_arg2
  · dsimp only [Cert.KernelIdeal.Gen.hostOps2_1]; after_results_simp; exact h_main_arg7
  · dsimp only [Cert.KernelIdeal.Gen.hostOps2_1]; after_results_simp; exact h_main_arg8

/-- The last stretch: the two layers' features joined side by side, summed per graph, and divided by the graph's node count (at least one). -/
theorem pool (W : Valuation Cert.KernelIdeal.τ Cert.KernelIdeal.sig (Elt Ideal))
    (x0 : (⟨Cert.ReferenceIdeal.S100000, .f32⟩ : BufTy).Contents (Elt Ideal))
    (x1 : (⟨Cert.ReferenceIdeal.S2x3200000, .i32⟩ : BufTy).Contents (Elt Ideal))
    (x2 : (⟨Cert.ReferenceIdeal.S100000, .i32⟩ : BufTy).Contents (Elt Ideal))
    (x3 : (⟨Cert.ReferenceIdeal.S1x64, .f32⟩ : BufTy).Contents (Elt Ideal))
    (x4 : (⟨Cert.ReferenceIdeal.S64, .f32⟩ : BufTy).Contents (Elt Ideal))
    (x5 : (⟨Cert.ReferenceIdeal.S64x64, .f32⟩ : BufTy).Contents (Elt Ideal))
    (x6 : (⟨Cert.ReferenceIdeal.S64, .f32⟩ : BufTy).Contents (Elt Ideal))
    (x7 : (⟨Cert.ReferenceIdeal.S128x10, .f32⟩ : BufTy).Contents (Elt Ideal))
    (x8 : (⟨Cert.ReferenceIdeal.S10, .f32⟩ : BufTy).Contents (Elt Ideal))
    (h_main_v47 : W (Proc.devRef .tc Cert.KernelIdeal.main_v47) = Cert.ReferenceIdeal.Read.val_main_v47 x0 x1 x3 x4)
    (h_main_v64 : W (Proc.devRef .tc Cert.KernelIdeal.main_v64) = Cert.ReferenceIdeal.Read.val_main_v64 x0 x1 x3 x4 x5 x6)
    (h_main_arg2 : W (Proc.devRef .tc Cert.KernelIdeal.main_arg2) = x2)
    (h_main_arg7 : W (Proc.devRef .tc Cert.KernelIdeal.main_arg7) = x7)
    (h_main_arg8 : W (Proc.devRef .tc Cert.KernelIdeal.main_arg8) = x8) :
    StableHlo.after Cert.KernelIdeal.Gen.hostOps2_2 W (Proc.devRef .tc Cert.KernelIdeal.main_v77) = Cert.ReferenceIdeal.Read.val_main_v77 x0 x1 x2 x3 x4 x5 x6
      ∧ StableHlo.after Cert.KernelIdeal.Gen.hostOps2_2 W (Proc.devRef .tc Cert.KernelIdeal.main_arg7) = x7
      ∧ StableHlo.after Cert.KernelIdeal.Gen.hostOps2_2 W (Proc.devRef .tc Cert.KernelIdeal.main_arg8) = x8 := by
  refine ⟨?_, ?_, ?_⟩
  · dsimp only [Cert.KernelIdeal.Gen.hostOps2_2]; after_results_simp
    rw [h_main_v47, h_main_v64, h_main_arg2]
    rfl
  · dsimp only [Cert.KernelIdeal.Gen.hostOps2_2]; after_results_simp; exact h_main_arg7
  · dsimp only [Cert.KernelIdeal.Gen.hostOps2_2]; after_results_simp; exact h_main_arg8

end Cert.Bridge

end
-- ==== Proof.RowsLayer1.lean ====
import proofs.«164311_j45835890983033_1_alg».proof.Proof.Gen.KernelIdeal.Frame
import proofs.«164311_j45835890983033_1_alg».proof.Proof.Gen.ReferenceIdeal
import Idealize.ShloMosaic.PureOps.Ideal.Laws
import Idealize.ShloMosaic.Lib.ValueIdx
import Idealize.ShloMosaic.Lib.Pipeline.Value

set_option maxRecDepth 16384

noncomputable section

open Idealize.ShloMosaic Idealize.ShloMosaic.TcCoe Idealize.SL.Sem

namespace Cert.Bridge.Layer1

open Cert.KernelIdeal Cert.KernelIdeal.Gen

/-! # Pallas call 0: a [100000, 1] x [1, 64] product computed in ten blocks of 10000 rows

Every entry of the product is a sum over the one contracted coordinate k : Fin 1:
entry (r, c) is the sum over k of X (r, k) * W (k, c).  The kernel computes rows
10000·t … 10000·t + 9999 at grid point t from the same rows of X and from all of W;
the host computes all rows at once.  So the ten blocks, put side by side, are the host's product. -/

/-- Inside one block: the entry of the left block in the output entry's row and contraction column k. -/
abbrev lrow (j : S10000x64.Idx) (k : Fin 1) : S10000x1.Idx := fun a => match a with
  | ⟨0, _⟩ => ⟨(j 0).val, (j 0).isLt⟩
  | ⟨1, _⟩ => ⟨k.val, k.isLt⟩

/-- Inside one block: the entry of the right operand in contraction row k and the output entry's column. -/
abbrev rcol (j : S10000x64.Idx) (k : Fin 1) : S1x64.Idx := fun a => match a with
  | ⟨0, _⟩ => ⟨k.val, k.isLt⟩
  | ⟨1, _⟩ => ⟨(j 1).val, (j 1).isLt⟩

/-- In the whole array: the entry of the left array in the output entry's row and contraction column k. -/
abbrev Lrow (i : S100000x64.Idx) (k : Fin 1) : S100000x1.Idx := fun a => match a with
  | ⟨0, _⟩ => ⟨(i 0).val, (i 0).isLt⟩
  | ⟨1, _⟩ => ⟨k.val, k.isLt⟩

/-- In the whole array: the entry of the right array in contraction row k and the output entry's column. -/
abbrev Rcol (i : S100000x64.Idx) (k : Fin 1) : S1x64.Idx := fun a => match a with
  | ⟨0, _⟩ => ⟨k.val, k.isLt⟩
  | ⟨1, _⟩ => ⟨(i 1).val, (i 1).isLt⟩

/-- The block product at an entry: the matrix unit's product into a zero accumulator, of operands whose
    narrowing to the shorter float format changes nothing at the ideal values, is the sum over the
    contracted coordinate of left entry (row, k) times right entry (k, column). -/
theorem pay_apply (x0 : Vec Ideal S10000x1 .f32) (x1 : Vec Ideal S1x64 .f32) (j : S10000x64.Idx) :
    k0_pay1 (F := Ideal) x0 x1 j = ∑ k : Fin 1, x0 (lrow j k) * x1 (rcol j k) := by
  unfold k0_pay1
  simp only [shapeCast_self]
  show FloatOps.matmul (F := Ideal) (φ₁ := .bf16) (φ₂ := .bf16) dot_S10000x1_S1x64_S10000x64_1_0_0_1_n_n none x0 x1 (constant S10000x64 .f32 0x00000000#32) j = _
  rw [Ideal.matmul_constant_zero_apply, ← Equiv.sum_comp (ValueIdx.contrEquiv1 dot_S10000x1_S1x64_S10000x64_1_0_0_1_n_n 1 rfl rfl).symm]
  refine Finset.sum_congr rfl fun k _ => ?_
  have hk := ValueIdx.contrEquiv1_symm_val dot_S10000x1_S1x64_S10000x64_1_0_0_1_n_n 1 rfl rfl k
  have el : dot_S10000x1_S1x64_S10000x64_1_0_0_1_n_n.lhsIdx j ((ValueIdx.contrEquiv1 dot_S10000x1_S1x64_S10000x64_1_0_0_1_n_n 1 rfl rfl).symm k) = lrow j k := funext fun a => Fin.ext (by
    match a with
    | ⟨0, _⟩ =>
      show (dot_S10000x1_S1x64_S10000x64_1_0_0_1_n_n.lhsIdx j _ 0).val = (j 0).val
      unfold DotDims.lhsIdx
      rw [dif_neg (show ¬(0 : Fin S10000x1.rank) ∈ dot_S10000x1_S1x64_S10000x64_1_0_0_1_n_n.lhsBatch by decide), dif_pos (show (0 : Fin S10000x1.rank) ∈ dot_S10000x1_S1x64_S10000x64_1_0_0_1_n_n.lhsNonContracting by decide)]
      rfl
    | ⟨1, _⟩ => exact (dot_S10000x1_S1x64_S10000x64_1_0_0_1_n_n.lhsIdx_val_of_single rfl j _).trans hk)
  have er : dot_S10000x1_S1x64_S10000x64_1_0_0_1_n_n.rhsIdx j ((ValueIdx.contrEquiv1 dot_S10000x1_S1x64_S10000x64_1_0_0_1_n_n 1 rfl rfl).symm k) = rcol j k := funext fun a => Fin.ext (by
    match a with
    | ⟨0, _⟩ => exact (dot_S10000x1_S1x64_S10000x64_1_0_0_1_n_n.rhsIdx_val_of_single rfl j _).trans hk
    | ⟨1, _⟩ =>
      show (dot_S10000x1_S1x64_S10000x64_1_0_0_1_n_n.rhsIdx j _ 1).val = (j 1).val
      unfold DotDims.rhsIdx
      rw [dif_neg (show ¬(1 : Fin S1x64.rank) ∈ dot_S10000x1_S1x64_S10000x64_1_0_0_1_n_n.rhsBatch by decide), dif_pos (show (1 : Fin S1x64.rank) ∈ dot_S10000x1_S1x64_S10000x64_1_0_0_1_n_n.rhsNonContracting by decide)]
      rfl)
  rw [el, er]

/-- The host's product at an entry: the same sum over the contracted coordinate, over the whole arrays. -/
theorem host_apply (X : FVec Ideal S100000x1 .f32) (W : FVec Ideal S1x64 .f32) (i : S100000x64.Idx) :
    Host.dotGeneral (F := Ideal) (φ₁ := .f32) (φ₂ := .f32) Cert.ReferenceIdeal.dot_S100000x1_S1x64_S100000x64_1_0_0_1_n_n none X W i
      = ∑ k : Fin 1, X (Lrow i k) * W (Rcol i k) := by
  simp only [Host.dotGeneral]
  rw [Ideal.dotGeneral_apply, ← Equiv.sum_comp (ValueIdx.contrEquiv1 Cert.ReferenceIdeal.dot_S100000x1_S1x64_S100000x64_1_0_0_1_n_n 1 rfl rfl).symm]
  refine Finset.sum_congr rfl fun k _ => ?_
  have hk := ValueIdx.contrEquiv1_symm_val Cert.ReferenceIdeal.dot_S100000x1_S1x64_S100000x64_1_0_0_1_n_n 1 rfl rfl k
  have el : Cert.ReferenceIdeal.dot_S100000x1_S1x64_S100000x64_1_0_0_1_n_n.lhsIdx i ((ValueIdx.contrEquiv1 Cert.ReferenceIdeal.dot_S100000x1_S1x64_S100000x64_1_0_0_1_n_n 1 rfl rfl).symm k) = Lrow i k := funext fun a => Fin.ext (by
    match a with
    | ⟨0, _⟩ =>
      show (Cert.ReferenceIdeal.dot_S100000x1_S1x64_S100000x64_1_0_0_1_n_n.lhsIdx i _ 0).val = (i 0).val
      unfold DotDims.lhsIdx
      rw [dif_neg (show ¬(0 : Fin Cert.ReferenceIdeal.S100000x1.rank) ∈ Cert.ReferenceIdeal.dot_S100000x1_S1x64_S100000x64_1_0_0_1_n_n.lhsBatch by decide), dif_pos (show (0 : Fin Cert.ReferenceIdeal.S100000x1.rank) ∈ Cert.ReferenceIdeal.dot_S100000x1_S1x64_S100000x64_1_0_0_1_n_n.lhsNonContracting by decide)]
      rfl
    | ⟨1, _⟩ => exact (Cert.ReferenceIdeal.dot_S100000x1_S1x64_S100000x64_1_0_0_1_n_n.lhsIdx_val_of_single rfl i _).trans hk)
  have er : Cert.ReferenceIdeal.dot_S100000x1_S1x64_S100000x64_1_0_0_1_n_n.rhsIdx i ((ValueIdx.contrEquiv1 Cert.ReferenceIdeal.dot_S100000x1_S1x64_S100000x64_1_0_0_1_n_n 1 rfl rfl).symm k) = Rcol i k := funext fun a => Fin.ext (by
    match a with
    | ⟨0, _⟩ => exact (Cert.ReferenceIdeal.dot_S100000x1_S1x64_S100000x64_1_0_0_1_n_n.rhsIdx_val_of_single rfl i _).trans hk
    | ⟨1, _⟩ =>
      show (Cert.ReferenceIdeal.dot_S100000x1_S1x64_S100000x64_1_0_0_1_n_n.rhsIdx i _ 1).val = (i 1).val
      unfold DotDims.rhsIdx
      rw [dif_neg (show ¬(1 : Fin Cert.ReferenceIdeal.S1x64.rank) ∈ Cert.ReferenceIdeal.dot_S100000x1_S1x64_S100000x64_1_0_0_1_n_n.rhsBatch by decide), dif_pos (show (1 : Fin Cert.ReferenceIdeal.S1x64.rank) ∈ Cert.ReferenceIdeal.dot_S100000x1_S1x64_S100000x64_1_0_0_1_n_n.rhsNonContracting by decide)]
      rfl)
  rw [el, er]

/-! ## Where the blocks sit -/

/-- The block offsets over the grid, decided once: at point t the left block and the output block are
    the same block of rows and start at column 0, the right operand is taken whole, and the row block
    number is at most 9. -/
theorem block_index : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Each of the ten row blocks is some grid point's output block. -/
theorem block_onto : ∀ q : Fin 10, ∃ t : Fin cfg0.N, win0_2.index t = ![q.val, 0] :=
  (by decide +kernel : ∀ q : Fin 10, ∃ t : Fin grid0.N, win0_2.index t = ![q.val, 0])

/-- The zero offset of a whole-block access, as a constant function. -/
theorem zero_off : (![0, 0] : Fin 2 → Nat) = fun _ => 0 := funext fun a => by fin_cases a <;> rfl

/-! ## One grid point -/

section Point
variable (V : (c : Dev nD) → (b : Ref sig .tc) → Buf (Elt Ideal) ((c : Thread nD τ).loc b))

/-- What is written back of a tile is the tile itself, entry by entry: the output block lies inside the array. -/
theorem cut_apply (t : Fin cfg0.N) (P : S10000x64.Idx → Elt Ideal .f32) (j : ((cfg0.win 2).xblock (grid0.coords t)).Idx) :
    (cfg0.win 2).cut (grid0.coords t) P j = P j := rfl

/-- Entry j of the output block at point t of an array G is G at that entry's place in the array. -/
theorem read_out (t : Fin cfg0.N) (G : S100000x64.Idx → Elt Ideal .f32) (j : ((cfg0.win 2).xblock (grid0.coords t)).Idx) :
    ((cfg0.win 2).blk t).view.read (Elt Ideal) G j = G (((cfg0.win 2).blk t).view.emb j) := rfl

/-- Entry y of the left block at point t is the left array at that entry's place in the array. -/
theorem left_apply (c : Dev nD) (t : Fin cfg0.N) (y : S10000x1.Idx) :
    iblk0 V c 0 t y = V c main_v30 (((cfg0.win 0).blk t).view.emb y) := rfl

/-- Entry y of the right block at point t is the right array at that entry's place in the array. -/
theorem right_apply (c : Dev nD) (t : Fin cfg0.N) (y : S1x64.Idx) :
    iblk0 V c 1 t y = V c main_arg3 (((cfg0.win 1).blk t).view.emb y) := rfl

/-- The left block's entry (row, k) sits in the left array in the row where the output block's entry sits,
    column k: both blocks are rows 10000·t … of their arrays and the left block starts at column 0. -/
theorem left_place (t : Fin cfg0.N) (j : S10000x64.Idx) (k : Fin 1) :
    ((cfg0.win 0).blk t).view.emb (lrow j k) = Lrow (((cfg0.win 2).blk t).view.emb j) k := by
  obtain ⟨e0, e1, e2, e3, e4, e5⟩ := block_index t
  funext a; apply Fin.ext
  match a with
  | ⟨0, _⟩ => show win0_0.index t (0 : Fin 2) * 10000 + 1 * (j 0).val = win0_2.index t (0 : Fin 2) * 10000 + 1 * (j 0).val; omega
  | ⟨1, _⟩ => show win0_0.index t (1 : Fin 2) * 1 + 1 * k.val = k.val; omega

/-- The right block is the whole right array: its entry (k, column) sits at (k, column), and the output
    block starts at column 0. -/
theorem right_place (t : Fin cfg0.N) (j : S10000x64.Idx) (k : Fin 1) :
    ((cfg0.win 1).blk t).view.emb (rcol j k) = Rcol (((cfg0.win 2).blk t).view.emb j) k := by
  obtain ⟨e0, e1, e2, e3, e4, e5⟩ := block_index t
  funext a; apply Fin.ext
  match a with
  | ⟨0, _⟩ => show win0_1.index t (0 : Fin 2) * 1 + 1 * k.val = k.val; omega
  | ⟨1, _⟩ => show win0_1.index t (1 : Fin 2) * 64 + 1 * (j 1).val = win0_2.index t (1 : Fin 2) * 64 + 1 * (j 1).val; omega

/-- At point t, entry j of the block product of the two blocks is the host's product of the two arrays at
    the place of entry j in the array: both are the same sum over the contracted coordinate. -/
theorem point_entry (c : Dev nD) (t : Fin cfg0.N) (j : S10000x64.Idx) :
    k0_pay1 (F := Ideal) (iblk0 V c 0 t) (iblk0 V c 1 t) j
      = Host.dotGeneral (F := Ideal) (φ₁ := .f32) (φ₂ := .f32) Cert.ReferenceIdeal.dot_S100000x1_S1x64_S100000x64_1_0_0_1_n_n none
          (V c main_v30) (V c main_arg3) (((cfg0.win 2).blk t).view.emb j) := by
  rw [pay_apply, host_apply]
  refine Finset.sum_congr rfl fun k _ => ?_
  rw [left_apply, right_apply, left_place t j k, right_place t j k]

/-- What point t writes back is block t (rows 10000·t …) of the host's product of the two arrays as the
    region finds them. -/
theorem flushed_eq (c : Dev nD) (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S100000x1_S1x64_S100000x64_1_0_0_1_n_n none
          (V c main_v30) (V c main_arg3)) := by
  show (cfg0.win 2).cut (grid0.coords t) ((dat0 (F := Ideal) V c).after 2 t) = _
  rw [after0_2]
  unfold out0_2
  rw [View.canon_unit_zero zero_off]
  simp only [View.ld_unit_zero (S := S10000x1) zero_off, View.ld_unit_zero (S := S1x64) zero_off]
  funext j
  rw [cut_apply, read_out]
  exact point_entry V c t j

end Point

/-! ## The ten blocks fill the array -/

/-- An entry of the array is in point t's output block iff each coordinate is in the block's range. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v31).slice (win0_2.rect t)).set ↔ _
  rw [View.set_slice_whole, Rect.mem_set_unit]
  exact Iff.rfl

/-- Row r of the array lies in the block of the point whose row block number is r / 10000, and every
    point writes its block back. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := block_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

end Cert.Bridge.Layer1

open Cert.Bridge.Layer1 in
/-- After the ten grid points the output array of Pallas call 0 is the host's [100000, 1] x [1, 64] product
    of the two operand arrays as the region finds them: each point wrote its block of rows of that
    product, and the blocks fill the array. -/
theorem Cert.Bridge.layer1_rows (V : (c : Dev Cert.KernelIdeal.nD) → (b : Ref Cert.KernelIdeal.sig .tc) → Buf (Elt Ideal) ((c : Thread Cert.KernelIdeal.nD Cert.KernelIdeal.τ).loc b)) (c : Dev Cert.KernelIdeal.nD) :
    (Cert.KernelIdeal.Gen.dat0 (F := Ideal) V c).arrAt 2 Cert.KernelIdeal.cfg0.N
      = Host.dotGeneral (F := Ideal) (φ₁ := .f32) (φ₂ := .f32) Cert.ReferenceIdeal.dot_S100000x1_S1x64_S100000x64_1_0_0_1_n_n none
          (V c Cert.KernelIdeal.main_v30) (V c Cert.KernelIdeal.main_arg3) :=
  (Cert.KernelIdeal.Gen.dat0 (F := Ideal) V c).arrAt_eq_of_cover 2 _ (fun t _ => flushed_eq V c t) cover

end
-- ==== Proof.RowsLayer2.lean ====
import proofs.«164311_j45835890983033_1_alg».proof.Proof.Gen.KernelIdeal.Frame
import proofs.«164311_j45835890983033_1_alg».proof.Proof.Gen.ReferenceIdeal
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open Idealize.ShloMosaic Idealize.ShloMosaic.TcCoe Idealize.SL.Sem

/-! # The second layer's matrix product: what its call leaves in the output array

The call runs over ten grid points. At point `t` it reads rows `10000·t … 10000·t + 9999` of the
node features [100000,64] and the whole weight matrix [64,64], rounds both to bf16 (no change at
the ideal values), multiplies them on the matrix unit into a zero accumulator, and writes the
[10000,64] result to the same rows of the output [100000,64]. This module shows that the output
array then holds, entry by entry, `∑ k, features (r, k) * weights (k, c)` over the 64 contracted
positions — the value the reference's one `dot_general` over all 100000 rows gives — for ANY
contents of the buffers at entry. The block's product and the whole product are different
contractions (10000 rows against 100000), so each is first read as a sum over `k : Fin 64`. -/

namespace Cert.Bridge.Layer2

open Cert.KernelIdeal Cert.KernelIdeal.Gen
open Idealize.ShloMosaic.ValueIdx
open Idealize.ShloMosaic.Pipeline (Dat)

/-- The kernel's contraction record, for a block of 10000 rows: the block's 64 columns against the
    weight matrix's 64 rows. -/
abbrev dK : DotDims S10000x64 S64x64 S10000x64 := Cert.KernelIdeal.dot_S10000x64_S64x64_S10000x64_1_0_0_1_n_n

/-- The reference's contraction record, for all 100000 rows: the same axes. -/
abbrev dR : DotDims Cert.ReferenceIdeal.S100000x64 Cert.ReferenceIdeal.S64x64 Cert.ReferenceIdeal.S100000x64 :=
  Cert.ReferenceIdeal.dot_S100000x64_S64x64_S100000x64_1_0_0_1_n_n

/-- The second layer as the reference computes it: the node features `A` ([100000,64]) times the
    weight matrix `W` ([64,64]); entry (r, c) is `∑ k, A (r, k) * W (k, c)`. -/
def layer (A : Vec Ideal S100000x64 .f32) (W : Vec Ideal S64x64 .f32) : Vec Ideal S100000x64 .f32 :=
  Host.dotGeneral (F := Ideal) (φ₁ := .f32) (φ₂ := .f32) dR none A W

/-! ## Where a product reads its operands -/

/-- In a block's product, the left operand is read in the output entry's row … -/
theorem kernel_lhs_row (j : S10000x64.Idx) (q : dK.contr.Idx) : (dK.lhsIdx j q 0).val = (j 0).val := by
  unfold DotDims.lhsIdx
  rw [dif_neg (show ¬(0 : Fin S10000x64.rank) ∈ dK.lhsBatch by decide), dif_pos (show (0 : Fin S10000x64.rank) ∈ dK.lhsNonContracting by decide)]
  rfl
/-- … at the contracted position as its column; -/
theorem kernel_lhs_col (j : S10000x64.Idx) (q : dK.contr.Idx) : (dK.lhsIdx j q 1).val = (q ⟨0, by decide⟩).val :=
  dK.lhsIdx_val_of_single rfl j q
/-- the right operand is read at the contracted position as its row … -/
theorem kernel_rhs_row (j : S10000x64.Idx) (q : dK.contr.Idx) : (dK.rhsIdx j q 0).val = (q ⟨0, by decide⟩).val :=
  dK.rhsIdx_val_of_single rfl j q
/-- … in the output entry's column. -/
theorem kernel_rhs_col (j : S10000x64.Idx) (q : dK.contr.Idx) : (dK.rhsIdx j q 1).val = (j 1).val := by
  unfold DotDims.rhsIdx
  rw [dif_neg (show ¬(1 : Fin S64x64.rank) ∈ dK.rhsBatch by decide), dif_pos (show (1 : Fin S64x64.rank) ∈ dK.rhsNonContracting by decide)]
  rfl

/-- The same four facts for the reference's product over all 100000 rows: the left operand in the
    output entry's row … -/
theorem reference_lhs_row (i : S100000x64.Idx) (q : dR.contr.Idx) : (dR.lhsIdx i q 0).val = (i 0).val := by
  unfold DotDims.lhsIdx
  rw [dif_neg (show ¬(0 : Fin Cert.ReferenceIdeal.S100000x64.rank) ∈ dR.lhsBatch by decide), dif_pos (show (0 : Fin Cert.ReferenceIdeal.S100000x64.rank) ∈ dR.lhsNonContracting by decide)]
  rfl
/-- … at the contracted position as its column; -/
theorem reference_lhs_col (i : S100000x64.Idx) (q : dR.contr.Idx) : (dR.lhsIdx i q 1).val = (q ⟨0, by decide⟩).val :=
  dR.lhsIdx_val_of_single rfl i q
/-- the right operand at the contracted position as its row … -/
theorem reference_rhs_row (i : S100000x64.Idx) (q : dR.contr.Idx) : (dR.rhsIdx i q 0).val = (q ⟨0, by decide⟩).val :=
  dR.rhsIdx_val_of_single rfl i q
/-- … in the output entry's column. -/
theorem reference_rhs_col (i : S100000x64.Idx) (q : dR.contr.Idx) : (dR.rhsIdx i q 1).val = (i 1).val := by
  unfold DotDims.rhsIdx
  rw [dif_neg (show ¬(1 : Fin Cert.ReferenceIdeal.S64x64.rank) ∈ dR.rhsBatch by decide), dif_pos (show (1 : Fin Cert.ReferenceIdeal.S64x64.rank) ∈ dR.rhsNonContracting by decide)]
  rfl

/-! ## The two products at an entry -/

/-- THE BODY'S PAYLOAD AT AN ENTRY: for a block `x0` of 10000 rows and the weight matrix `x1`,
    entry (p, c) is `∑ k, x0 (p, k) * x1 (k, c)` over the 64 contracted positions (rounding the
    operands to bf16 changes nothing at the ideal values, and the accumulator starts at zero). -/
theorem payload_apply (x0 : Vec Ideal S10000x64 .f32) (x1 : Vec Ideal S64x64 .f32) (p : Fin 10000) (c : Fin 64) :
    k1_pay1 x0 x1 (ix2 p c) = ∑ k : Fin 64, x0 (ix2 p k) * x1 (ix2 k c) := by
  unfold k1_pay1
  rw [shapeCast_self]
  simp only [matmul]
  rw [Ideal.matmul_constant_zero_apply, ← Equiv.sum_comp (contrEquiv1 dK 64 rfl rfl).symm]
  refine Finset.sum_congr rfl fun k _ => ?_
  have hk := contrEquiv1_symm_val dK 64 rfl rfl k
  have el : dK.lhsIdx (ix2 p c) ((contrEquiv1 dK 64 rfl rfl).symm k) = ix2 p k := funext fun a => Fin.ext (by
    match a with
    | ⟨0, _⟩ => exact kernel_lhs_row _ _
    | ⟨1, _⟩ => exact (kernel_lhs_col _ _).trans hk)
  have er : dK.rhsIdx (ix2 p c) ((contrEquiv1 dK 64 rfl rfl).symm k) = ix2 k c := funext fun a => Fin.ext (by
    match a with
    | ⟨0, _⟩ => exact (kernel_rhs_row _ _).trans hk
    | ⟨1, _⟩ => exact kernel_rhs_col _ _)
  rw [truncf_apply, truncf_apply, el, er]

/-- THE REFERENCE'S PRODUCT AT AN ENTRY: entry (r, c) is `∑ k, A (r, k) * W (k, c)`. -/
theorem layer_apply (A : Vec Ideal S100000x64 .f32) (W : Vec Ideal S64x64 .f32) (r : Fin 100000) (c : Fin 64) :
    layer A W (ix2 r c) = ∑ k : Fin 64, A (ix2 r k) * W (ix2 k c) := by
  unfold layer
  simp only [Host.dotGeneral]
  rw [Ideal.dotGeneral_apply, ← Equiv.sum_comp (contrEquiv1 dR 64 rfl rfl).symm]
  refine Finset.sum_congr rfl fun k _ => ?_
  have hk := contrEquiv1_symm_val dR 64 rfl rfl k
  have el : dR.lhsIdx (ix2 r c) ((contrEquiv1 dR 64 rfl rfl).symm k) = ix2 r k := funext fun a => Fin.ext (by
    match a with
    | ⟨0, _⟩ => exact reference_lhs_row _ _
    | ⟨1, _⟩ => exact (reference_lhs_col _ _).trans hk)
  have er : dR.rhsIdx (ix2 r c) ((contrEquiv1 dR 64 rfl rfl).symm k) = ix2 k c := funext fun a => Fin.ext (by
    match a with
    | ⟨0, _⟩ => exact (reference_rhs_row _ _).trans hk
    | ⟨1, _⟩ => exact reference_rhs_col _ _)
  rw [el, er]

/-- Row `p` of the block with index `b` (at most 9) is row `b * 10000 + p` of the array. -/
abbrev rowAt (b : Nat) (hb : b ≤ 9) (p : Fin 10000) : Fin 100000 := ⟨b * 10000 + p.val, by have := p.isLt; omega⟩

/-- A BLOCK OF THE KERNEL'S PRODUCT IS THE SAME ROWS OF THE REFERENCE'S: if the tile `x0` holds rows
    `b * 10000 + p` of `A`, then entry (p, c) of the payload of `x0` and `W` is entry
    (b * 10000 + p, c) of `A` times `W`. -/
theorem payload_rows (A : Vec Ideal S100000x64 .f32) (W : Vec Ideal S64x64 .f32) (x0 : Vec Ideal S10000x64 .f32)
    (b : Nat) (hb : b ≤ 9) (h0 : ∀ (p : Fin 10000) (k : Fin 64), x0 (ix2 p k) = A (ix2 (rowAt b hb p) k))
    (p : Fin 10000) (c : Fin 64) : k1_pay1 x0 W (ix2 p c) = layer A W (ix2 (rowAt b hb p) c) := by
  rw [payload_apply, layer_apply]
  exact Finset.sum_congr rfl fun k _ => by rw [h0]

end Cert.Bridge.Layer2

namespace Cert.Bridge.Layer2

open Cert.KernelIdeal Cert.KernelIdeal.Gen
open Idealize.ShloMosaic.ValueIdx
open Idealize.ShloMosaic.Pipeline (Dat)

/-- A zero offset on each of two axes is the constant-zero offset. -/
theorem zero_off2 : (![0, 0] : Fin 2 → Nat) = fun _ => 0 := funext fun a => by fin_cases a <;> rfl

/-- The printed index maps of the second layer's call, decided over its ten grid points: the
    feature window moves down the rows with the output window, neither moves along the columns,
    the weight window does not move at all, and the output's row-block index is at most 9. -/
theorem index_facts : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Each of the ten row blocks of the output is some grid point's. -/
theorem index_onto : ∀ q : Fin 10, ∃ t : Fin cfg1.N, win1_2.index t = ![q.val, 0] :=
  (by decide +kernel : ∀ q : Fin 10, ∃ t : Fin grid1.N, win1_2.index t = ![q.val, 0])

variable (V : (c : Dev nD) → (b : Ref sig .tc) → Buf (Elt Ideal) ((c : Thread nD τ).loc b))

/-- The feature window's block at point `t` holds rows `b * 10000 + p` of the feature array, `b`
    the output window's row-block index at `t`. -/
theorem features_block (c : Dev nD) (t : Fin cfg1.N) (hb : win1_2.index t (0 : Fin 2) ≤ 9) (p : Fin 10000) (k : Fin 64) :
    iblk1 (F := Ideal) V c 0 t (ix2 p k) = V c main_v47 (ix2 (rowAt (win1_2.index t (0 : Fin 2)) hb p) k) := by
  obtain ⟨e0, e1, -, -, -, -⟩ := index_facts t
  show V c main_v47 (((cfg1.win 0).blk t).view.emb (ix2 p k)) = V c main_v47 _
  refine congrArg (V c main_v47) (funext fun a => Fin.ext ?_)
  match a with
  | ⟨0, _⟩ => show win1_0.index t (0 : Fin 2) * 10000 + 1 * p.val = win1_2.index t (0 : Fin 2) * 10000 + p.val; omega
  | ⟨1, _⟩ => show win1_0.index t (1 : Fin 2) * 64 + 1 * k.val = k.val; omega

/-- The weight window's block is its whole array: all 64 rows and 64 columns, at every point. -/
theorem weights_block (c : Dev nD) (t : Fin cfg1.N) : iblk1 (F := Ideal) V c 1 t = V c main_arg5 := by
  obtain ⟨-, -, e0, e1, -, -⟩ := index_facts t
  funext y
  show V c main_arg5 (((cfg1.win 1).blk t).view.emb y) = V c main_arg5 y
  refine congrArg (V c main_arg5) (funext fun a => Fin.ext ?_)
  match a with
  | ⟨0, _⟩ => show win1_1.index t (0 : Fin 2) * 64 + 1 * (y 0).val = (y 0).val; omega
  | ⟨1, _⟩ => show win1_1.index t (1 : Fin 2) * 64 + 1 * (y 1).val = (y 1).val; omega

/-- What a write-back of a [10000,64] staging buffer `X` at point `t` writes is the output window's
    block at `t` of a [100000,64] array `G`, once `X` holds rows `b * 10000 + p` of `G`, `b` the
    window's row-block index at `t`: nothing is cut, and the block sits `b` blocks down. -/
theorem output_block (t : Fin cfg1.N) (hb : win1_2.index t (0 : Fin 2) ≤ 9) (X : Vec Ideal S10000x64 .f32) (G : Vec Ideal S100000x64 .f32)
    (h : ∀ (p : Fin 10000) (c : Fin 64), X (ix2 p c) = G (ix2 (rowAt (win1_2.index t (0 : Fin 2)) hb p) c)) :
    (cfg1.win 2).cut (grid1.coords t) X = ((cfg1.win 2).blk t).view.read (Elt Ideal) G := by
  obtain ⟨-, -, -, -, e1, -⟩ := index_facts t
  funext y
  show X ((cfg1.win 2).xinj (grid1.coords t) y) = G (((cfg1.win 2).blk t).view.emb y)
  have h0 : (y 0).val < 10000 := (y 0).isLt
  have h1 : (y 1).val < 64 := (y 1).isLt
  have ex : (cfg1.win 2).xinj (grid1.coords t) y = ix2 (⟨(y 0).val, h0⟩ : Fin 10000) (⟨(y 1).val, h1⟩ : Fin 64) :=
    funext fun a => Fin.ext (by
      match a with
      | ⟨0, _⟩ => rfl
      | ⟨1, _⟩ => rfl)
  have eg : ((cfg1.win 2).blk t).view.emb y = ix2 (rowAt (win1_2.index t (0 : Fin 2)) hb ⟨(y 0).val, h0⟩) (⟨(y 1).val, h1⟩ : Fin 64) :=
    funext fun a => Fin.ext (by
      match a with
      | ⟨0, _⟩ => show win1_2.index t (0 : Fin 2) * 10000 + 1 * (y 0).val = win1_2.index t (0 : Fin 2) * 10000 + (y 0).val; omega
      | ⟨1, _⟩ => show win1_2.index t (1 : Fin 2) * 64 + 1 * (y 1).val = (y 1).val; omega)
  rw [ex, eg]
  exact h _ _

/-- WHAT POINT `t` WRITES BACK is its 10000 rows of the reference's product of the feature array and
    the weight matrix as the call finds them. -/
theorem flushed_eq (c : Dev nD) (t : Fin cfg1.N) :
    (dat1 (F := Ideal) V c).flushed 2 t
      = ((cfg1.win 2).blk t).view.read (Elt Ideal) (layer (V c main_v47) (V c main_arg5)) := by
  show (cfg1.win 2).cut (grid1.coords t) ((dat1 (F := Ideal) V c).after 2 t) = _
  rw [after1_2]
  unfold out1_2
  rw [View.canon_unit_zero zero_off2]
  simp only [View.ld_unit_zero (S := S10000x64) zero_off2, View.ld_unit_zero (S := S64x64) zero_off2]
  rw [weights_block]
  have hb : win1_2.index t (0 : Fin 2) ≤ 9 := (index_facts t).2.2.2.2.2
  exact output_block t hb (k1_pay1 (iblk1 (F := Ideal) V c 0 t) (V c main_arg5)) (layer (V c main_v47) (V c main_arg5))
    (payload_rows (V c main_v47) (V c main_arg5) (iblk1 (F := Ideal) V c 0 t) _ hb (features_block V c t hb))

/-- An entry of the [100000,64] output is in point `t`'s block iff each coordinate is within the
    block's range on its axis. -/
theorem mem_block (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v48).slice (win1_2.rect t)).set ↔ _
  rw [View.set_slice_whole, Rect.mem_set_unit]
  exact Iff.rfl

/-- Every entry of the output is in some point's block, which that point writes back: row `r` is
    in the block of the point whose row-block index is `r / 10000`. -/
theorem covered (i : S100000x64.Idx) : ∃ t : Fin cfg1.N, (cfg1.win 2).flush t = true ∧ i ∈ ((cfg1.win 2).blk t).view.set := by
  have h0 : (i 0).val < 100000 := (i 0).isLt
  have h1 : (i 1).val < 64 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

end Cert.Bridge.Layer2

/-- THE SECOND LAYER'S OUTPUT ARRAY after its call, whatever the buffers held when the call was
    entered: all 100000 rows of the feature array times the weight matrix, as the reference
    computes them with the host's `dot_general` — the ten grid points write the ten blocks of 10000
    rows, and each block's product is the same sums `∑ k, features (r, k) * weights (k, c)`. -/
theorem Cert.Bridge.layer2_rows (V : (c : Dev Cert.KernelIdeal.nD) → (b : Ref Cert.KernelIdeal.sig .tc) → Buf (Elt Ideal) ((c : Thread Cert.KernelIdeal.nD Cert.KernelIdeal.τ).loc b)) (c : Dev Cert.KernelIdeal.nD) :
    (Cert.KernelIdeal.Gen.dat1 (F := Ideal) V c).arrAt 2 Cert.KernelIdeal.cfg1.N
      = Host.dotGeneral (F := Ideal) (φ₁ := .f32) (φ₂ := .f32) Cert.ReferenceIdeal.dot_S100000x64_S64x64_S100000x64_1_0_0_1_n_n none
          (V c Cert.KernelIdeal.main_v47) (V c Cert.KernelIdeal.main_arg5) :=
  (Cert.KernelIdeal.Gen.dat1 (F := Ideal) V c).arrAt_eq_of_cover 2
    (Cert.Bridge.Layer2.layer (V c Cert.KernelIdeal.main_v47) (V c Cert.KernelIdeal.main_arg5))
    (fun t _ => Cert.Bridge.Layer2.flushed_eq V c t) Cert.Bridge.Layer2.covered

end
-- ==== Proof.Classifier.lean ====
import proofs.«164311_j45835890983033_1_alg».proof.Proof.Gen.KernelIdeal.Frame
import proofs.«164311_j45835890983033_1_alg».proof.Proof.Gen.ReferenceIdeal
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open Idealize.ShloMosaic Idealize.ShloMosaic.TcCoe Idealize.SL.Sem

/-! # The final linear layer: what its call leaves in the output array

The call has one grid point, and each of its four windows holds its whole array: the pooled
features [512,128], the weight matrix [128,10], the bias [10] and the output [512,10]. The body
rounds the two matrices to bf16 (no change at the ideal values), multiplies them on the matrix
unit into a zero accumulator, adds the bias laid as a row and repeated over the 512 rows, and
stores the whole [512,10] result. This module shows that the output array then holds, entry by
entry, `∑ k, features (r, k) * weights (k, c) + bias c` — the value the reference's
`dot_general`, two `broadcast_in_dim`s and add give — for ANY contents of the buffers at entry. -/

namespace Cert.Bridge.Classifier

open Cert.KernelIdeal Cert.KernelIdeal.Gen
open Idealize.ShloMosaic.ValueIdx

/-- The reference's classifier head as one function of its three operands: the pooled features
    `x0` ([512,128]) times the weight matrix `x1` ([128,10]), plus the bias `x2` ([10]) laid as one
    row and repeated over the 512 rows. Entry (r, c) is `∑ k, x0 (r, k) * x1 (k, c) + x2 c`. -/
def head (x0 : Vec Ideal S512x128 .f32) (x1 : Vec Ideal S128x10 .f32) (x2 : Vec Ideal S10 .f32) : Vec Ideal S512x10 .f32 :=
  addf (Host.dotGeneral (F := Ideal) (φ₁ := .f32) (φ₂ := .f32) Cert.ReferenceIdeal.dot_S512x128_S128x10_S512x10_1_0_0_1_n_n none x0 x1)
    (broadcastInDim Cert.ReferenceIdeal.S512x10 ![0, 1] Cert.ReferenceIdeal.Facts₀.bcast_S1x10_S512x10_0_1
      (broadcastInDim Cert.ReferenceIdeal.S1x10 ![1] Cert.ReferenceIdeal.Facts₀.bcast_S10_S1x10_1 x2))

/-- The kernel's and the reference's contraction records name the same axes: the left operand's
    columns against the right operand's rows, no batch axis. -/
theorem dims_eq : (Cert.KernelIdeal.dot_S512x128_S128x10_S512x10_1_0_0_1_n_n : DotDims S512x128 S128x10 S512x10)
    = Cert.ReferenceIdeal.dot_S512x128_S128x10_S512x10_1_0_0_1_n_n := rfl

/-- The matrix unit's product into a zero accumulator and the host's `dot_general` are, at the
    ideal values, the same sum `∑ k, x0 (r, k) * x1 (k, c)` over the 128 contracted positions. -/
theorem product_eq (x0 : FVec Ideal S512x128 .f32) (x1 : FVec Ideal S128x10 .f32) (j : S512x10.Idx) :
    FloatOps.matmul Cert.KernelIdeal.dot_S512x128_S128x10_S512x10_1_0_0_1_n_n none x0 x1 (constant S512x10 .f32 0x00000000#32) j
      = FloatOps.dotGeneral Cert.ReferenceIdeal.dot_S512x128_S128x10_S512x10_1_0_0_1_n_n none .single x0 x1 j := by
  rw [Ideal.matmul_constant_zero_apply, Ideal.dotGeneral_apply, dims_eq]

/-- The kernel's bias term: the bias laid as a [1,10] row and repeated over the rows reads, at
    (r, c), the bias at `c`. -/
theorem bias_kernel (x2 : Vec Ideal S10 .f32) (h3 : S10.ShapeCasts S1x10) (h4 : S1x10.Broadcasts S512x10) (p : Fin 512) (q : Fin 10) :
    broadcastTo S512x10 (shapeCast S1x10 x2 h3) h4 (ix2 p q) = x2 (ix1 q) := by
  rw [broadcastTo_1b_ab_apply, shapeCast_a_1a_apply]

/-- The reference's bias term: the two `broadcast_in_dim`s ([10] to [1,10] to [512,10]) read, at
    (r, c), the bias at `c`. -/
theorem bias_reference (x2 : Vec Ideal S10 .f32) (p : Fin 512) (q : Fin 10) :
    broadcastInDim Cert.ReferenceIdeal.S512x10 ![0, 1] Cert.ReferenceIdeal.Facts₀.bcast_S1x10_S512x10_0_1
      (broadcastInDim Cert.ReferenceIdeal.S1x10 ![1] Cert.ReferenceIdeal.Facts₀.bcast_S10_S1x10_1 x2) (ix2 p q) = x2 (ix1 q) := by
  rw [broadcastInDim_apply _ Cert.ReferenceIdeal.Facts₀.bcast_S1x10_S512x10_0_1 _ (ix2 p q) (ix2 (0 : Fin 1) q) (fun a => match a with
      | ⟨0, _⟩ => by show 0 = if (1 : Nat) = 1 then 0 else p.val; rw [if_pos rfl]
      | ⟨1, _⟩ => by show q.val = if (10 : Nat) = 1 then 0 else q.val; rw [if_neg (by decide)]),
    broadcastInDim_apply _ Cert.ReferenceIdeal.Facts₀.bcast_S10_S1x10_1 x2 (ix2 (0 : Fin 1) q) (ix1 q) (fun a => match a with
      | ⟨0, _⟩ => by show q.val = if (10 : Nat) = 1 then 0 else q.val; rw [if_neg (by decide)])]

/-- THE BODY'S PAYLOAD IS THE REFERENCE'S HEAD of the three loaded blocks: rounding the operands
    to bf16 changes nothing at the ideal values, the product is the same sum, and both bias terms
    read the bias at the column. -/
theorem payload_eq (x0 : Vec Ideal S512x128 .f32) (x1 : Vec Ideal S128x10 .f32) (x2 : Vec Ideal S10 .f32) :
    k2_pay1 x0 x1 x2 = head x0 x1 x2 := by
  funext j
  obtain ⟨p, q, rfl⟩ : ∃ (p : Fin 512) (q : Fin 10), j = ix2 p q := ⟨j 0, j 1, eq_ix2 j⟩
  unfold k2_pay1 head
  dsimp only
  rw [shapeCast_self, addf_apply, addf_apply, bias_kernel, bias_reference]
  simp only [matmul, Host.dotGeneral]
  exact congrArg (· + x2 (ix1 q)) (product_eq x0 x1 (ix2 p q))

end Cert.Bridge.Classifier

namespace Cert.Bridge.Classifier

open Cert.KernelIdeal Cert.KernelIdeal.Gen
open Idealize.ShloMosaic.ValueIdx
open Idealize.ShloMosaic.Pipeline (Dat)

/-- A zero offset on each of two axes is the constant-zero offset. -/
theorem zero_off2 : (![0, 0] : Fin 2 → Nat) = fun _ => 0 := funext fun a => by fin_cases a <;> rfl

/-- A zero offset on the one axis of a vector is the constant-zero offset. -/
theorem zero_off1 : (![0] : Fin 1 → Nat) = fun _ => 0 := funext fun a => by fin_cases a; rfl

/-- The printed index maps of the final layer's call, decided over its one-point grid: every
    window's block index is zero on every axis, so each block starts at the array's first entry. -/
theorem index_zero : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0 :=
  (by decide +kernel : ∀ t : Fin grid2.N, _)

variable (V : (c : Dev nD) → (b : Ref sig .tc) → Buf (Elt Ideal) ((c : Thread nD τ).loc b))

/-- The feature window's block is its whole array: all 512 rows and 128 columns of the pooled
    features, as the call finds them. -/
theorem features_block (c : Dev nD) (t : Fin cfg2.N) : iblk2 (F := Ideal) V c 0 t = V c main_v77 := by
  obtain ⟨e0, e1, -, -, -, -, -⟩ := index_zero t
  funext y
  show V c main_v77 (((cfg2.win 0).blk t).view.emb y) = V c main_v77 y
  refine congrArg (V c main_v77) (funext fun a => Fin.ext ?_)
  match a with
  | ⟨0, _⟩ => show win2_0.index t (0 : Fin 2) * 512 + 1 * (y 0).val = (y 0).val; omega
  | ⟨1, _⟩ => show win2_0.index t (1 : Fin 2) * 128 + 1 * (y 1).val = (y 1).val; omega

/-- The weight window's block is its whole array: all 128 rows and 10 columns. -/
theorem weights_block (c : Dev nD) (t : Fin cfg2.N) : iblk2 (F := Ideal) V c 1 t = V c main_arg7 := by
  obtain ⟨-, -, e0, e1, -, -, -⟩ := index_zero t
  funext y
  show V c main_arg7 (((cfg2.win 1).blk t).view.emb y) = V c main_arg7 y
  refine congrArg (V c main_arg7) (funext fun a => Fin.ext ?_)
  match a with
  | ⟨0, _⟩ => show win2_1.index t (0 : Fin 2) * 128 + 1 * (y 0).val = (y 0).val; omega
  | ⟨1, _⟩ => show win2_1.index t (1 : Fin 2) * 10 + 1 * (y 1).val = (y 1).val; omega

/-- The bias window's block is its whole array: all 10 entries. -/
theorem bias_block (c : Dev nD) (t : Fin cfg2.N) : iblk2 (F := Ideal) V c 2 t = V c main_arg8 := by
  obtain ⟨-, -, -, -, e0, -, -⟩ := index_zero t
  funext y
  show V c main_arg8 (((cfg2.win 2).blk t).view.emb y) = V c main_arg8 y
  refine congrArg (V c main_arg8) (funext fun a => Fin.ext ?_)
  match a with
  | ⟨0, _⟩ => show win2_2.index t (0 : Fin 1) * 10 + 1 * (y 0).val = (y 0).val; omega

/-- Reading the output window's block out of a [512,10] array gives the array back, and so does
    taking the part of a [512,10] staging buffer that the write-back moves: the block is the whole
    array and nothing is cut. -/
theorem whole_block (t : Fin cfg2.N) (G : Vec Ideal S512x10 .f32) :
    (cfg2.win 3).cut (grid2.coords t) G = ((cfg2.win 3).blk t).view.read (Elt Ideal) G := by
  obtain ⟨-, -, -, -, -, e0, e1⟩ := index_zero t
  funext y
  show G ((cfg2.win 3).xinj (grid2.coords t) y) = G (((cfg2.win 3).blk t).view.emb y)
  refine congrArg G (funext fun a => Fin.ext ?_)
  match a with
  | ⟨0, _⟩ => show (y 0).val = win2_3.index t (0 : Fin 2) * 512 + 1 * (y 0).val; omega
  | ⟨1, _⟩ => show (y 1).val = win2_3.index t (1 : Fin 2) * 10 + 1 * (y 1).val; omega

/-- WHAT THE ONE GRID POINT WRITES BACK is the reference's head of the three arrays as the call
    finds them, all 512 × 10 entries of it. -/
theorem flushed_eq (c : Dev nD) (t : Fin cfg2.N) :
    (dat2 (F := Ideal) V c).flushed 3 t
      = ((cfg2.win 3).blk t).view.read (Elt Ideal) (head (V c main_v77) (V c main_arg7) (V c main_arg8)) := by
  show (cfg2.win 3).cut (grid2.coords t) ((dat2 (F := Ideal) V c).after 3 t) = _
  rw [after2_3]
  unfold out2_3
  rw [View.canon_unit_zero zero_off2]
  simp only [View.ld_unit_zero (S := S512x128) zero_off2, View.ld_unit_zero (S := S128x10) zero_off2, View.ld_unit_zero (S := S10) zero_off1]
  rw [payload_eq, features_block, weights_block, bias_block]
  exact whole_block t _

/-- An entry of the [512,10] output is in the point's block iff each coordinate is within the
    block's range on its axis. -/
theorem mem_block (t : Fin cfg2.N) (i : S512x10.Idx) :
    i ∈ ((cfg2.win 3).blk t).view.set ↔ ∀ a : Fin 2, win2_3.index t a * S512x10.size a ≤ (i a).val ∧ (i a).val < win2_3.index t a * S512x10.size a + S512x10.size a := by
  show i ∈ ((View.whole main_v78).slice (win2_3.rect t)).set ↔ _
  rw [View.set_slice_whole, Rect.mem_set_unit]
  exact Iff.rfl

/-- Every entry of the output is in the one point's block, which that point writes back. -/
theorem covered (i : S512x10.Idx) : ∃ t : Fin cfg2.N, (cfg2.win 3).flush t = true ∧ i ∈ ((cfg2.win 3).blk t).view.set := by
  obtain ⟨-, -, -, -, -, e0, e1⟩ := index_zero t2_0
  refine ⟨t2_0, flush2_3 t2_0, ?_⟩
  rw [mem_block]
  intro a
  have h0 : (i 0).val < 512 := (i 0).isLt
  have h1 : (i 1).val < 10 := (i 1).isLt
  match a with
  | ⟨0, _⟩ => show win2_3.index t2_0 (0 : Fin 2) * 512 ≤ (i 0).val ∧ (i 0).val < win2_3.index t2_0 (0 : Fin 2) * 512 + 512; omega
  | ⟨1, _⟩ => show win2_3.index t2_0 (1 : Fin 2) * 10 ≤ (i 1).val ∧ (i 1).val < win2_3.index t2_0 (1 : Fin 2) * 10 + 10; omega

end Cert.Bridge.Classifier

/-- THE FINAL LAYER'S OUTPUT ARRAY after its call, whatever the buffers held when the call was
    entered: the pooled features times the weight matrix plus the bias repeated over the rows, as
    the reference computes it with the host's `dot_general`, two `broadcast_in_dim`s and an add. -/
theorem Cert.Bridge.classifier_value (V : (c : Dev Cert.KernelIdeal.nD) → (b : Ref Cert.KernelIdeal.sig .tc) → Buf (Elt Ideal) ((c : Thread Cert.KernelIdeal.nD Cert.KernelIdeal.τ).loc b)) (c : Dev Cert.KernelIdeal.nD) :
    (Cert.KernelIdeal.Gen.dat2 (F := Ideal) V c).arrAt 3 Cert.KernelIdeal.cfg2.N
      = addf (Host.dotGeneral (F := Ideal) (φ₁ := .f32) (φ₂ := .f32) Cert.ReferenceIdeal.dot_S512x128_S128x10_S512x10_1_0_0_1_n_n none
                (V c Cert.KernelIdeal.main_v77) (V c Cert.KernelIdeal.main_arg7))
             (broadcastInDim Cert.ReferenceIdeal.S512x10 ![0, 1] Cert.ReferenceIdeal.Facts₀.bcast_S1x10_S512x10_0_1
                (broadcastInDim Cert.ReferenceIdeal.S1x10 ![1] Cert.ReferenceIdeal.Facts₀.bcast_S10_S1x10_1 (V c Cert.KernelIdeal.main_arg8))) :=
  (Cert.KernelIdeal.Gen.dat2 (F := Ideal) V c).arrAt_eq_of_cover 3
    (Cert.Bridge.Classifier.head (V c Cert.KernelIdeal.main_v77) (V c Cert.KernelIdeal.main_arg7) (V c Cert.KernelIdeal.main_arg8))
    (fun t _ => Cert.Bridge.Classifier.flushed_eq V c t) Cert.Bridge.Classifier.covered

end
-- ==== Proof.KernelValue.lean ====
/-
  The idealized kernel's result as the reference's last stage.  The buffer contents at the kernel's nine segment boundaries
  are followed from the launch to the return: a stretch of host operations keeps "every live buffer holds the reference's
  stage" (the host steps), and a pallas_call replaces its output array by the matrix product of its input arrays, which at
  the ideal values is the host's `dot_general` of them (the three per-call lemmas), every other buffer kept.  At the return
  the result buffer holds the reference's last stage `val_main_v81` of the nine argument arrays.
-/
import proofs.«164311_j45835890983033_1_alg».proof.Proof.HostSteps
import proofs.«164311_j45835890983033_1_alg».proof.Proof.RowsLayer1
import proofs.«164311_j45835890983033_1_alg».proof.Proof.RowsLayer2
import proofs.«164311_j45835890983033_1_alg».proof.Proof.Classifier
import proofs.«164311_j45835890983033_1_alg».proof.Proof.Gen.KernelIdeal.Frame

set_option maxRecDepth 16384

noncomputable section

namespace Cert.Bridge

open Idealize.ShloMosaic Idealize.ShloMosaic.TcCoe Idealize.SL.Sem Idealize.ShloMosaic.StableHlo

/-- The first pallas_call: if its input arrays hold the node-feature column and `W1`, its output array ends at the
    reference's first matrix product. -/
theorem call0_step (V : (c : Dev Cert.KernelIdeal.nD) → (b : Ref Cert.KernelIdeal.sig .tc) → Buf (Elt Ideal) ((c : Thread Cert.KernelIdeal.nD Cert.KernelIdeal.τ).loc b)) (c : Dev Cert.KernelIdeal.nD) (x0 : (⟨Cert.ReferenceIdeal.S100000, .f32⟩ : BufTy).Contents (Elt Ideal)) (x3 : (⟨Cert.ReferenceIdeal.S1x64, .f32⟩ : BufTy).Contents (Elt Ideal))
    (h30 : V c Cert.KernelIdeal.main_v30 = Cert.ReferenceIdeal.Read.val_main_v30 x0) (h3 : V c Cert.KernelIdeal.main_arg3 = x3) :
    (Cert.KernelIdeal.Gen.dat0 (F := Ideal) V c).arrAt 2 Cert.KernelIdeal.cfg0.N = Cert.ReferenceIdeal.Read.val_main_v31 x0 x3 := by
  rw [layer1_rows V c, h30, h3]; rfl

/-- The second pallas_call: if its input arrays hold the first layer's features and `W2`, its output array ends at the
    reference's second matrix product. -/
theorem call1_step (V : (c : Dev Cert.KernelIdeal.nD) → (b : Ref Cert.KernelIdeal.sig .tc) → Buf (Elt Ideal) ((c : Thread Cert.KernelIdeal.nD Cert.KernelIdeal.τ).loc b)) (c : Dev Cert.KernelIdeal.nD) (x0 : (⟨Cert.ReferenceIdeal.S100000, .f32⟩ : BufTy).Contents (Elt Ideal)) (x1 : (⟨Cert.ReferenceIdeal.S2x3200000, .i32⟩ : BufTy).Contents (Elt Ideal)) (x3 : (⟨Cert.ReferenceIdeal.S1x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal))
    (h47 : V c Cert.KernelIdeal.main_v47 = Cert.ReferenceIdeal.Read.val_main_v47 x0 x1 x3 x4) (h5 : V c Cert.KernelIdeal.main_arg5 = x5) :
    (Cert.KernelIdeal.Gen.dat1 (F := Ideal) V c).arrAt 2 Cert.KernelIdeal.cfg1.N = Cert.ReferenceIdeal.Read.val_main_v48 x0 x1 x3 x4 x5 := by
  rw [layer2_rows V c, h47, h5]; rfl

/-- The third pallas_call: if its input arrays hold the pooled features, `Wl` and `bl`, its output array ends at the
    reference's result: the product plus the bias broadcast over the rows. -/
theorem call2_step (V : (c : Dev Cert.KernelIdeal.nD) → (b : Ref Cert.KernelIdeal.sig .tc) → Buf (Elt Ideal) ((c : Thread Cert.KernelIdeal.nD Cert.KernelIdeal.τ).loc b)) (c : Dev Cert.KernelIdeal.nD) (x0 : (⟨Cert.ReferenceIdeal.S100000, .f32⟩ : BufTy).Contents (Elt Ideal)) (x1 : (⟨Cert.ReferenceIdeal.S2x3200000, .i32⟩ : BufTy).Contents (Elt Ideal)) (x2 : (⟨Cert.ReferenceIdeal.S100000, .i32⟩ : BufTy).Contents (Elt Ideal)) (x3 : (⟨Cert.ReferenceIdeal.S1x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S128x10, .f32⟩ : BufTy).Contents (Elt Ideal)) (x8 : (⟨Cert.ReferenceIdeal.S10, .f32⟩ : BufTy).Contents (Elt Ideal))
    (h77 : V c Cert.KernelIdeal.main_v77 = Cert.ReferenceIdeal.Read.val_main_v77 x0 x1 x2 x3 x4 x5 x6) (h7 : V c Cert.KernelIdeal.main_arg7 = x7) (h8 : V c Cert.KernelIdeal.main_arg8 = x8) :
    (Cert.KernelIdeal.Gen.dat2 (F := Ideal) V c).arrAt 3 Cert.KernelIdeal.cfg2.N = Cert.ReferenceIdeal.Read.val_main_v81 x0 x1 x2 x3 x4 x5 x6 x7 x8 := by
  rw [classifier_value V c, h77, h7, h8]; rfl

open Cert.KernelIdeal.Gen in
/-- THE KERNEL'S VALUE: at the return, the result buffer holds the reference's last stage of the argument arrays. -/
theorem kernel_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    W9 m ρ c (Proc.devRef .tc Cert.KernelIdeal.main_v78)
      = Cert.ReferenceIdeal.Read.val_main_v81 (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8)) := by
  -- the launch memory at the nine argument arrays
  have a_arg0 : W0 m ρ c (Proc.devRef .tc Cert.KernelIdeal.main_arg0) = (m ((c.tc : Thread Cert.KernelIdeal.nD Cert.KernelIdeal.τ).loc Cert.KernelIdeal.main_arg0)) := rfl
  have a_arg1 : W0 m ρ c (Proc.devRef .tc Cert.KernelIdeal.main_arg1) = (m ((c.tc : Thread Cert.KernelIdeal.nD Cert.KernelIdeal.τ).loc Cert.KernelIdeal.main_arg1)) := rfl
  have a_arg2 : W0 m ρ c (Proc.devRef .tc Cert.KernelIdeal.main_arg2) = (m ((c.tc : Thread Cert.KernelIdeal.nD Cert.KernelIdeal.τ).loc Cert.KernelIdeal.main_arg2)) := rfl
  have a_arg3 : W0 m ρ c (Proc.devRef .tc Cert.KernelIdeal.main_arg3) = (m ((c.tc : Thread Cert.KernelIdeal.nD Cert.KernelIdeal.τ).loc Cert.KernelIdeal.main_arg3)) := rfl
  have a_arg4 : W0 m ρ c (Proc.devRef .tc Cert.KernelIdeal.main_arg4) = (m ((c.tc : Thread Cert.KernelIdeal.nD Cert.KernelIdeal.τ).loc Cert.KernelIdeal.main_arg4)) := rfl
  have a_arg5 : W0 m ρ c (Proc.devRef .tc Cert.KernelIdeal.main_arg5) = (m ((c.tc : Thread Cert.KernelIdeal.nD Cert.KernelIdeal.τ).loc Cert.KernelIdeal.main_arg5)) := rfl
  have a_arg6 : W0 m ρ c (Proc.devRef .tc Cert.KernelIdeal.main_arg6) = (m ((c.tc : Thread Cert.KernelIdeal.nD Cert.KernelIdeal.τ).loc Cert.KernelIdeal.main_arg6)) := rfl
  have a_arg7 : W0 m ρ c (Proc.devRef .tc Cert.KernelIdeal.main_arg7) = (m ((c.tc : Thread Cert.KernelIdeal.nD Cert.KernelIdeal.τ).loc Cert.KernelIdeal.main_arg7)) := rfl
  have a_arg8 : W0 m ρ c (Proc.devRef .tc Cert.KernelIdeal.main_arg8) = (m ((c.tc : Thread Cert.KernelIdeal.nD Cert.KernelIdeal.τ).loc Cert.KernelIdeal.main_arg8)) := rfl
  -- after the first stretch (the first call's entry)
  obtain ⟨b_v3, b_v6, b_v29, b_v30, b_arg2, b_arg3, b_arg4, b_arg5, b_arg6, b_arg7, b_arg8⟩ := stretch0 (W0 m ρ c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      a_arg0 a_arg1 a_arg2 a_arg3 a_arg4 a_arg5 a_arg6 a_arg7 a_arg8
  -- after the first call
  have c_v31 : W2 m ρ c (Proc.devRef .tc Cert.KernelIdeal.main_v31) = Cert.ReferenceIdeal.Read.val_main_v31 (m ((c.tc : Thread Cert.KernelIdeal.nD Cert.KernelIdeal.τ).loc Cert.KernelIdeal.main_arg0)) (m ((c.tc : Thread Cert.KernelIdeal.nD Cert.KernelIdeal.τ).loc Cert.KernelIdeal.main_arg3)) :=
    (W2_arr m ρ c 2).trans (call0_step (V1 m ρ) c _ _ b_v30 b_arg3)
  have c_v3 : W2 m ρ c (Proc.devRef .tc Cert.KernelIdeal.main_v3) = Cert.ReferenceIdeal.Read.val_main_v3 (m ((c.tc : Thread Cert.KernelIdeal.nD Cert.KernelIdeal.τ).loc Cert.KernelIdeal.main_arg1)) := (W2_of_ne m ρ c Cert.KernelIdeal.main_v3 (by decide)).trans b_v3
  have c_v6 : W2 m ρ c (Proc.devRef .tc Cert.KernelIdeal.main_v6) = Cert.ReferenceIdeal.Read.val_main_v6 (m ((c.tc : Thread Cert.KernelIdeal.nD Cert.KernelIdeal.τ).loc Cert.KernelIdeal.main_arg1)) := (W2_of_ne m ρ c Cert.KernelIdeal.main_v6 (by decide)).trans b_v6
  have c_v29 : W2 m ρ c (Proc.devRef .tc Cert.KernelIdeal.main_v29) = Cert.ReferenceIdeal.Read.val_main_v29 (m ((c.tc : Thread Cert.KernelIdeal.nD Cert.KernelIdeal.τ).loc Cert.KernelIdeal.main_arg1)) := (W2_of_ne m ρ c Cert.KernelIdeal.main_v29 (by decide)).trans b_v29
  have c_arg2 : W2 m ρ c (Proc.devRef .tc Cert.KernelIdeal.main_arg2) = (m ((c.tc : Thread Cert.KernelIdeal.nD Cert.KernelIdeal.τ).loc Cert.KernelIdeal.main_arg2)) := (W2_of_ne m ρ c Cert.KernelIdeal.main_arg2 (by decide)).trans b_arg2
  have c_arg4 : W2 m ρ c (Proc.devRef .tc Cert.KernelIdeal.main_arg4) = (m ((c.tc : Thread Cert.KernelIdeal.nD Cert.KernelIdeal.τ).loc Cert.KernelIdeal.main_arg4)) := (W2_of_ne m ρ c Cert.KernelIdeal.main_arg4 (by decide)).trans b_arg4
  have c_arg5 : W2 m ρ c (Proc.devRef .tc Cert.KernelIdeal.main_arg5) = (m ((c.tc : Thread Cert.KernelIdeal.nD Cert.KernelIdeal.τ).loc Cert.KernelIdeal.main_arg5)) := (W2_of_ne m ρ c Cert.KernelIdeal.main_arg5 (by decide)).trans b_arg5
  have c_arg6 : W2 m ρ c (Proc.devRef .tc Cert.KernelIdeal.main_arg6) = (m ((c.tc : Thread Cert.KernelIdeal.nD Cert.KernelIdeal.τ).loc Cert.KernelIdeal.main_arg6)) := (W2_of_ne m ρ c Cert.KernelIdeal.main_arg6 (by decide)).trans b_arg6
  have c_arg7 : W2 m ρ c (Proc.devRef .tc Cert.KernelIdeal.main_arg7) = (m ((c.tc : Thread Cert.KernelIdeal.nD Cert.KernelIdeal.τ).loc Cert.KernelIdeal.main_arg7)) := (W2_of_ne m ρ c Cert.KernelIdeal.main_arg7 (by decide)).trans b_arg7
  have c_arg8 : W2 m ρ c (Proc.devRef .tc Cert.KernelIdeal.main_arg8) = (m ((c.tc : Thread Cert.KernelIdeal.nD Cert.KernelIdeal.τ).loc Cert.KernelIdeal.main_arg8)) := (W2_of_ne m ρ c Cert.KernelIdeal.main_arg8 (by decide)).trans b_arg8
  -- after the second stretch and the first rectifier (the second call's entry)
  obtain ⟨d_v46, d_v3, d_v6, d_v29, d_arg2, d_arg5, d_arg6, d_arg7, d_arg8⟩ := stretch1 (W2 m ρ c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      c_v31 c_v3 c_v6 c_v29 c_arg2 c_arg4 c_arg5 c_arg6 c_arg7 c_arg8
  obtain ⟨e_v47, e_v3, e_v6, e_v29, e_arg2, e_arg5, e_arg6, e_arg7, e_arg8⟩ := relu1 (W3 m ρ c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      d_v46 d_v3 d_v6 d_v29 d_arg2 d_arg5 d_arg6 d_arg7 d_arg8
  -- after the second call: its output array, its input array of first-layer features (kept), the rest untouched
  have f_v48 : W5 m ρ c (Proc.devRef .tc Cert.KernelIdeal.main_v48) = Cert.ReferenceIdeal.Read.val_main_v48 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
    (W5_arr m ρ c 2).trans (call1_step (V4 m ρ) c _ _ _ _ _ e_v47 e_arg5)
  have f_v47 : W5 m ρ c (Proc.devRef .tc Cert.KernelIdeal.main_v47) = Cert.ReferenceIdeal.Read.val_main_v47 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) :=
    ((W5_arr m ρ c 0).trans (((dat1 (V4 m ρ) c).arrAt_in 0 rfl _).trans (A_eq1 (V4 m ρ) c 0))).trans e_v47
  have f_v3 : W5 m ρ c (Proc.devRef .tc Cert.KernelIdeal.main_v3) = Cert.ReferenceIdeal.Read.val_main_v3 (m ((c.tc : Thread Cert.KernelIdeal.nD Cert.KernelIdeal.τ).loc Cert.KernelIdeal.main_arg1)) := (W5_of_ne m ρ c Cert.KernelIdeal.main_v3 (by decide)).trans e_v3
  have f_v6 : W5 m ρ c (Proc.devRef .tc Cert.KernelIdeal.main_v6) = Cert.ReferenceIdeal.Read.val_main_v6 (m ((c.tc : Thread Cert.KernelIdeal.nD Cert.KernelIdeal.τ).loc Cert.KernelIdeal.main_arg1)) := (W5_of_ne m ρ c Cert.KernelIdeal.main_v6 (by decide)).trans e_v6
  have f_v29 : W5 m ρ c (Proc.devRef .tc Cert.KernelIdeal.main_v29) = Cert.ReferenceIdeal.Read.val_main_v29 (m ((c.tc : Thread Cert.KernelIdeal.nD Cert.KernelIdeal.τ).loc Cert.KernelIdeal.main_arg1)) := (W5_of_ne m ρ c Cert.KernelIdeal.main_v29 (by decide)).trans e_v29
  have f_arg2 : W5 m ρ c (Proc.devRef .tc Cert.KernelIdeal.main_arg2) = (m ((c.tc : Thread Cert.KernelIdeal.nD Cert.KernelIdeal.τ).loc Cert.KernelIdeal.main_arg2)) := (W5_of_ne m ρ c Cert.KernelIdeal.main_arg2 (by decide)).trans e_arg2
  have f_arg6 : W5 m ρ c (Proc.devRef .tc Cert.KernelIdeal.main_arg6) = (m ((c.tc : Thread Cert.KernelIdeal.nD Cert.KernelIdeal.τ).loc Cert.KernelIdeal.main_arg6)) := (W5_of_ne m ρ c Cert.KernelIdeal.main_arg6 (by decide)).trans e_arg6
  have f_arg7 : W5 m ρ c (Proc.devRef .tc Cert.KernelIdeal.main_arg7) = (m ((c.tc : Thread Cert.KernelIdeal.nD Cert.KernelIdeal.τ).loc Cert.KernelIdeal.main_arg7)) := (W5_of_ne m ρ c Cert.KernelIdeal.main_arg7 (by decide)).trans e_arg7
  have f_arg8 : W5 m ρ c (Proc.devRef .tc Cert.KernelIdeal.main_arg8) = (m ((c.tc : Thread Cert.KernelIdeal.nD Cert.KernelIdeal.τ).loc Cert.KernelIdeal.main_arg8)) := (W5_of_ne m ρ c Cert.KernelIdeal.main_arg8 (by decide)).trans e_arg8
  -- after the third stretch, the second rectifier and the pooling (the third call's entry)
  obtain ⟨g_v63, g_v47, g_arg2, g_arg7, g_arg8⟩ := stretch2 (W5 m ρ c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      f_v48 f_v47 f_v3 f_v6 f_v29 f_arg2 f_arg6 f_arg7 f_arg8
  obtain ⟨h_v64, h_v47, h_arg2, h_arg7, h_arg8⟩ := relu2 (W6 m ρ c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      g_v63 g_v47 g_arg2 g_arg7 g_arg8
  obtain ⟨k_v77, k_arg7, k_arg8⟩ := pool (W7 m ρ c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      h_v47 h_v64 h_arg2 h_arg7 h_arg8
  -- the third call's output array is the result buffer
  exact (W9_arr m ρ c 3).trans (call2_step (V8 m ρ) c _ _ _ _ _ _ _ _ _ k_v77 k_arg7 k_arg8)

end Cert.Bridge

end
-- ==== Proof.lean ====
/-
  A two-layer graph convolution with a concatenated read-out, mean pooling per graph and a linear classifier, against its
  jnp reference.  Both programs apply the SAME host operations in the same order — the index vectors with self-loops, the
  degree by a scatter-add, the symmetric normalisation rsqrt(max(deg, 1)) gathered along the edges, and per layer: gather the
  transformed node features along the edges, scale, scatter-add into the destination rows, add the bias, rectify; then join
  the two layers' features, sum them per graph and divide by the graph's node count.  They differ only in the three dense
  products: the kernel computes x·W1 and x1·W2 row block by row block (10 blocks of 10000 rows) and pooled·Wl + bl in one
  block, casting its operands to bf16 first, where the reference calls `dot_general` on the whole arrays.  At the ideal
  values a change of float format is the identity and both products are the same sum over the contracted axis, entry by
  entry, so the two programs compute the same function of the arguments; no law that needs finiteness is used.

  `algebraic`: the kernel's run names its result as the last boundary's contents (Proof/KernelRun.lean), which are the
  reference's last stage of the argument arrays (Proof/KernelValue.lean, over Proof/HostSteps.lean and the three per-call
  modules Proof/RowsLayer1.lean, Proof/RowsLayer2.lean, Proof/Classifier.lean); the reference's run ends at the same stage
  (its generated run and read-back).  The three frames are the generated ones; `preserves` has no entry.
-/
import proofs.«164311_j45835890983033_1_alg».proof.Defs
import proofs.«164311_j45835890983033_1_alg».proof.Proof.Gen.Kernel
import proofs.«164311_j45835890983033_1_alg».proof.Proof.Gen.Kernel.Skeleton
import proofs.«164311_j45835890983033_1_alg».proof.Proof.Gen.Kernel.Launch
import proofs.«164311_j45835890983033_1_alg».proof.Proof.Gen.Kernel.Points
import proofs.«164311_j45835890983033_1_alg».proof.Proof.Gen.Kernel.Frame
import proofs.«164311_j45835890983033_1_alg».proof.Proof.Gen.KernelIdeal
import proofs.«164311_j45835890983033_1_alg».proof.Proof.Gen.KernelIdeal.Skeleton
import proofs.«164311_j45835890983033_1_alg».proof.Proof.Gen.KernelIdeal.Launch
import proofs.«164311_j45835890983033_1_alg».proof.Proof.Gen.KernelIdeal.Points
import proofs.«164311_j45835890983033_1_alg».proof.Proof.Gen.KernelIdeal.Frame
import proofs.«164311_j45835890983033_1_alg».proof.Proof.Gen.ReferenceIdeal
import proofs.«164311_j45835890983033_1_alg».proof.Proof.Gen.ReferenceIdeal.Run
import proofs.«164311_j45835890983033_1_alg».proof.Proof.Gen.ReferenceIdeal.Read
import proofs.«164311_j45835890983033_1_alg».proof.Proof.Gen.Pre_finite_inputs
import proofs.«164311_j45835890983033_1_alg».proof.Proof.KernelRun
import proofs.«164311_j45835890983033_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference has no pallas_call: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the nine arguments both idealized programs end with the same result: the reference's last
    stage of the arguments. -/
theorem algebraic : Cert.algebraic_KernelIdeal_ReferenceIdeal := by
  intro m ρ m' ρ' _ hagree
  refine ⟨fun c => Cert.KernelIdeal.Gen.W9 m ρ c (Proc.devRef .tc Cert.KernelIdeal.main_v78),
    Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v81_eq, e0, e1, e2, e3, e4, e5, e6, e7, e8]
  exact (Cert.Bridge.kernel_value m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
